-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg8 : FVec F S128x128 .f32) (main_arg9 : FVec F S256x128 .f32) (main_arg10 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S128 .f32) (main_arg6 : FVec F S128 .f32) (main_arg7 : FVec F S128x128 .f32) (main_arg8 : FVec F S128x128 .f32) (main_arg9 : FVec F S256x128 .f32) (main_arg10 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S40000x128 .f32) (main_arg1 : IVec S2x640000 32) (main_arg2 : FVec F S128 .f32) (main_arg3 : FVec F S128 .f32) (main_arg4 : FVec F S128 .f32) (main_arg5 : FVec F S128 .f32) (main_arg6 : FVec F S128 .f32) (main_arg7 : FVec F S128x128 .f32) (main_arg8 : FVec F S128x128 .f32) (main_arg9 : FVec F S256x128 .f32) (main_arg10 : FVec F S128x128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S40000x128 : Shape := ⟨2, ![40000, 128]⟩
abbrev S2x640000 : Shape := ⟨2, ![2, 640000]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S5000x128 : Shape := ⟨2, ![5000, 128]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩
abbrev S2000x256 : Shape := ⟨2, ![2000, 256]⟩

abbrev nBuf : Space → Nat
  | .hbm => 51
  | .vmem => 19
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S256x128, .f32⟩
  | .hbm, ⟨10, _⟩ => ⟨S128x128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S128x128, .bf16⟩
  | .hbm, ⟨16, _⟩ => ⟨S128x128, .bf16⟩
  | .hbm, ⟨17, _⟩ => ⟨S256x128, .bf16⟩
  | .hbm, ⟨18, _⟩ => ⟨S128x128, .bf16⟩
  | .hbm, ⟨19, _⟩ => ⟨S40000x128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S_, .f32⟩
  | .hbm, ⟨30, _⟩ => ⟨S40000x128, .f32⟩
  | .hbm, ⟨31, _⟩ => ⟨S640000x1, .i32⟩
  | .hbm, ⟨32, _⟩ => ⟨S40000x128, .f32⟩
  | .hbm, ⟨33, _⟩ => ⟨S_, .f32⟩
  | .hbm, ⟨34, _⟩ => ⟨S640000, .f32⟩
  | .hbm, ⟨35, _⟩ => ⟨S_, .f32⟩
  | .hbm, ⟨36, _⟩ => ⟨S40000, .f32⟩
  | .hbm, ⟨37, _⟩ => ⟨S640000x1, .i32⟩
  | .hbm, ⟨38, _⟩ => ⟨S40000, .f32⟩
  | .hbm, ⟨39, _⟩ => ⟨S_, .f32⟩
  | .hbm, ⟨40, _⟩ => ⟨S40000, .f32⟩
  | .hbm, ⟨41, _⟩ => ⟨S40000, .f32⟩
  | .hbm, ⟨42, _⟩ => ⟨S40000x1, .f32⟩
  | .hbm, ⟨43, _⟩ => ⟨S40000x128, .f32⟩
  | .hbm, ⟨44, _⟩ => ⟨S40000x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S40000x128, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S128x128, .bf16⟩
  | .local _ .vmem, ⟨4, _⟩ => ⟨S5000x128, .f32⟩
  | .local _ .vmem, ⟨5, _⟩ => ⟨S5000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S256x128, .bf16⟩
  | .local _ .vmem, ⟨16, _⟩ => ⟨S128x128, .bf16⟩
  | .local _ .vmem, ⟨17, _⟩ => ⟨S2000x128, .f32⟩
  | .local _ .vmem, ⟨18, _⟩ => ⟨S2000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  concatenates_S2000x128_S2000x128_S2000x256_d1 : Shape.Concatenates [S2000x128, S2000x128] S2000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  dot_S5000x128_S128x128_S5000x128_1_0_0_1_n_n_wf : DotDims.WF S5000x128 S128x128 S5000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S40000x128.size a
  hwx0_3 : ∀ i : grid0.Coords, EltTy.bits .f32 = 32 ∨ (Rect.block (s := S40000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S40000x128.size a
  hwx1_0 : ∀ i : grid1.Coords, EltTy.bits .f32 = 32 ∨ (Rect.block (s := S40000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S40000x128.size a
  hwx1_1 : ∀ i : grid1.Coords, EltTy.bits .f32 = 32 ∨ (Rect.block (s := S40000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x128.size a ≤ S256x128.size a
  hwx1_7 : ∀ i : grid1.Coords, EltTy.bits .bf16 = 32 ∨ (Rect.block (s := S256x128) S256x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .bf16 = 32 ∨ (Rect.block (s := S128x128) S128x128.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S40000x128.size a
  hwx1_9 : ∀ i : grid1.Coords, EltTy.bits .f32 = 32 ∨ (Rect.block (s := S40000x128) S2000x128.size (cc1_transform_9 i) (hinb1_9 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S256x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v7) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩
abbrev S40000x256 : Shape := ⟨2, ![40000, 256]⟩

abbrev nBuf : Space → Nat
  | .hbm => 114
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S256x128, .f32⟩
  | .hbm, ⟨10, _⟩ => ⟨S128x128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S640000x128, .f32⟩
  | .hbm, ⟨25, _⟩ => ⟨S_, .f32⟩
  | .hbm, ⟨26, _⟩ => ⟨S640000x128, .f32⟩
  | .hbm, ⟨27, _⟩ => ⟨S640000x128, .f32⟩
  | .hbm, ⟨28, _⟩ => ⟨S640000x128, .f32⟩
  | .hbm, ⟨29, _⟩ => ⟨S_, .f32⟩
  | .hbm, ⟨30, _⟩ => ⟨S40000x128, .f32⟩
  | .hbm, ⟨31, _⟩ => ⟨S640000x1, .i32⟩
  | .hbm, ⟨32, _⟩ => ⟨S40000x128, .f32⟩
  | .hbm, ⟨33, _⟩ => ⟨S_, .f32⟩
  | .hbm, ⟨34, _⟩ => ⟨S640000, .f32⟩
  | .hbm, ⟨35, _⟩ => ⟨S_, .f32⟩
  | .hbm, ⟨36, _⟩ => ⟨S40000, .f32⟩
  | .hbm, ⟨37, _⟩ => ⟨S640000x1, .i32⟩
  | .hbm, ⟨38, _⟩ => ⟨S40000, .f32⟩
  | .hbm, ⟨39, _⟩ => ⟨S_, .f32⟩
  | .hbm, ⟨40, _⟩ => ⟨S40000, .f32⟩
  | .hbm, ⟨41, _⟩ => ⟨S40000, .f32⟩
  | .hbm, ⟨42, _⟩ => ⟨S40000x1, .f32⟩
  | .hbm, ⟨43, _⟩ => ⟨S40000x128, .f32⟩
  | .hbm, ⟨44, _⟩ => ⟨S40000x128, .f32⟩
  | .hbm, ⟨45, _⟩ => ⟨S_, .f32⟩
  | .hbm, ⟨46, _⟩ => ⟨S40000, .f32⟩
  | .hbm, ⟨47, _⟩ => ⟨S40000x1, .f32⟩
  | .hbm, ⟨48, _⟩ => ⟨S_, .f32⟩
  | .hbm, ⟨49, _⟩ => ⟨S40000x1, .f32⟩
  | .hbm, ⟨50, _⟩ => ⟨S40000x1, .f32⟩
  | .hbm, ⟨51, _⟩ => ⟨S40000x128, .f32⟩
  | .hbm, ⟨52, _⟩ => ⟨S40000x128, .f32⟩
  | .hbm, ⟨53, _⟩ => ⟨S40000x128, .f32⟩
  | .hbm, ⟨54, _⟩ => ⟨S_, .f32⟩
  | .hbm, ⟨55, _⟩ => ⟨S40000, .f32⟩
  | .hbm, ⟨56, _⟩ => ⟨S40000x1, .f32⟩
  | .hbm, ⟨57, _⟩ => ⟨S_, .f32⟩
  | .hbm, ⟨58, _⟩ => ⟨S40000x1, .f32⟩
  | .hbm, ⟨59, _⟩ => ⟨S40000x1, .f32⟩
  | .hbm, ⟨60, _⟩ => ⟨S40000x128, .f32⟩
  | .hbm, ⟨61, _⟩ => ⟨S40000x128, .f32⟩
  | .hbm, ⟨62, _⟩ => ⟨S_, .f32⟩
  | .hbm, ⟨63, _⟩ => ⟨S40000x1, .f32⟩
  | .hbm, ⟨64, _⟩ => ⟨S40000x1, .f32⟩
  | .hbm, ⟨65, _⟩ => ⟨S40000x1, .f32⟩
  | .hbm, ⟨66, _⟩ => ⟨S40000x128, .f32⟩
  | .hbm, ⟨67, _⟩ => ⟨S40000x128, .f32⟩
  | .hbm, ⟨68, _⟩ => ⟨S1x128, .f32⟩
  | .hbm, ⟨69, _⟩ => ⟨S40000x128, .f32⟩
  | .hbm, ⟨70, _⟩ => ⟨S40000x128, .f32⟩
  | .hbm, ⟨71, _⟩ => ⟨S1x128, .f32⟩
  | .hbm, ⟨72, _⟩ => ⟨S40000x128, .f32⟩
  | .hbm, ⟨73, _⟩ => ⟨S40000x128, .f32⟩
  | .hbm, ⟨74, _⟩ => ⟨S40000x128, .f32⟩
  | .hbm, ⟨75, _⟩ => ⟨S1x128, .f32⟩
  | .hbm, ⟨76, _⟩ => ⟨S40000x128, .f32⟩
  | .hbm, ⟨77, _⟩ => ⟨S40000x128, .f32⟩
  | .hbm, ⟨78, _⟩ => ⟨S40000x128, .f32⟩
  | .hbm, ⟨79, _⟩ => ⟨S_, .f32⟩
  | .hbm, ⟨80, _⟩ => ⟨S40000, .f32⟩
  | .hbm, ⟨81, _⟩ => ⟨S40000x1, .f32⟩
  | .hbm, ⟨82, _⟩ => ⟨S_, .f32⟩
  | .hbm, ⟨83, _⟩ => ⟨S40000x1, .f32⟩
  | .hbm, ⟨84, _⟩ => ⟨S40000x1, .f32⟩
  | .hbm, ⟨85, _⟩ => ⟨S40000x128, .f32⟩
  | .hbm, ⟨86, _⟩ => ⟨S40000x128, .f32⟩
  | .hbm, ⟨87, _⟩ => ⟨S40000x128, .f32⟩
  | .hbm, ⟨88, _⟩ => ⟨S_, .f32⟩
  | .hbm, ⟨89, _⟩ => ⟨S40000, .f32⟩
  | .hbm, ⟨90, _⟩ => ⟨S40000x1, .f32⟩
  | .hbm, ⟨91, _⟩ => ⟨S_, .f32⟩
  | .hbm, ⟨92, _⟩ => ⟨S40000x1, .f32⟩
  | .hbm, ⟨93, _⟩ => ⟨S40000x1, .f32⟩
  | .hbm, ⟨94, _⟩ => ⟨S40000x128, .f32⟩
  | .hbm, ⟨95, _⟩ => ⟨S40000x128, .f32⟩
  | .hbm, ⟨96, _⟩ => ⟨S_, .f32⟩
  | .hbm, ⟨97, _⟩ => ⟨S40000x1, .f32⟩
  | .hbm, ⟨98, _⟩ => ⟨S40000x1, .f32⟩
  | .hbm, ⟨99, _⟩ => ⟨S40000x1, .f32⟩
  | .hbm, ⟨100, _⟩ => ⟨S40000x128, .f32⟩
  | .hbm, ⟨101, _⟩ => ⟨S40000x128, .f32⟩
  | .hbm, ⟨102, _⟩ => ⟨S1x128, .f32⟩
  | .hbm, ⟨103, _⟩ => ⟨S40000x128, .f32⟩
  | .hbm, ⟨104, _⟩ => ⟨S40000x128, .f32⟩
  | .hbm, ⟨105, _⟩ => ⟨S1x128, .f32⟩
  | .hbm, ⟨106, _⟩ => ⟨S40000x128, .f32⟩
  | .hbm, ⟨107, _⟩ => ⟨S40000x128, .f32⟩
  | .hbm, ⟨108, _⟩ => ⟨S40000x256, .f32⟩
  | .hbm, ⟨109, _⟩ => ⟨S40000x128, .f32⟩
  | .hbm, ⟨110, _⟩ => ⟨S_, .f32⟩
  | .hbm, ⟨111, _⟩ => ⟨S40000x128, .f32⟩
  | .hbm, ⟨112, _⟩ => ⟨S40000x128, .f32⟩
  | .hbm, ⟨113, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_15 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  reducesTo_S40000x128_S40000_d1 : S40000x128.ReducesTo [1] S40000
  h_S_ : 0 < S_.numel
  bcast_S_S40000x1 : S_.BroadcastsInDim S40000x1 (![] : Fin 0 → Fin S40000x1.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  concatenates_S40000x128_S40000x128_S40000x256_d1 : Shape.Concatenates [S40000x128, S40000x128] S40000x256 1
  gather_S40000x128_S640000x1_S640000x128_1_0_n_n_0_1_1128_wf : GatherDims.WF S40000x128 S640000x1 S640000x128 [1] [0] [] [0] [] 1 ![1, 128]
  dot_S640000x128_S128x128_S640000x128_1_0_0_1_n_n_wf : DotDims.WF S640000x128 S128x128 S640000x128 [1] [0] [0] [1] [] []
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x256_S256x128_S40000x128_1_0_0_1_n_n_wf : DotDims.WF S40000x256 S256x128 S40000x128 [1] [0] [0] [1] [] []
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.Spec.lean ====
/-
  The node update, one row at a time, on the extended reals.

  A node's message is a two-layer network of its feature row: `relu (v · W1) · W2`. A node's output depends on two
  rows only, its own feature row `x` and its aggregated message row `a`: the aggregate is normalised over its 128
  entries (mean, centred second moment plus a small constant, reciprocal square root, gain and bias), mixed with the
  feature row as `x + (x - â) · w`, the mixture is normalised the same way, the two normalised rows are laid side by
  side into 256 entries, and a second two-layer network `relu (u · O1) · O2` is applied. Every array-level statement of
  this certificate is "row `r` of the result is this function of row `r` of the operands".
-/
import Idealize.ShloMosaic.PureOps.Ideal
import Idealize.ShloMosaic.Lib.ValueIdx

noncomputable section

namespace Cert.RowSpec

open Idealize.ShloMosaic Idealize.ShloMosaic.ValueIdx

/-- A feature row: 128 extended reals. -/
abbrev Row := Fin 128 → EReal
/-- An `a × b` matrix of extended reals, indexed as the arrays of the programs are. -/
abbrev Mat (a b : ℕ) := (⟨2, ![a, b]⟩ : Shape).Idx → EReal

/-- The number 128, as the float constant both programs divide by. -/
def c128 : EReal := Ideal.ofBits .f32 0x43000000#32
/-- The small constant added to a second moment before the reciprocal square root. -/
def ceps : EReal := Ideal.ofBits .f32 0x3727C5AC#32

/-- The message network on one row: `relu (v · W1) · W2`. -/
def mlp (W1 W2 : Mat 128 128) (v : Row) : Row :=
  fun j => ∑ k : Fin 128, max (∑ l : Fin 128, v l * W1 (ix2 l k)) 0 * W2 (ix2 k j)

/-- The mean of a row: its sum divided by 128. -/
def mean (v : Row) : EReal := Ideal.div (∑ k : Fin 128, v k) c128

/-- A row normalised: centred, scaled by the reciprocal square root of its centred second moment plus the small
    constant, then gain and bias entry by entry. -/
def ln (g b v : Row) : Row := fun q =>
  (v q - mean v) * Ideal.rsqrt (mean (fun k => (v k - mean v) * (v k - mean v)) + ceps) * g q + b q

/-- The feature row pushed away from the normalised aggregate: `x + (x - â) · w`. -/
def mix (w x a : Row) : Row := fun q => x q + (x q - a q) * w q

/-- Two rows side by side: 256 entries, the first row then the second. -/
def cat (f a : Row) : Fin 256 → EReal :=
  fun k => if h : k.val < 128 then f ⟨k.val, h⟩ else a ⟨k.val - 128, by omega⟩

/-- The output network on a row of 256 entries: `relu (u · O1) · O2`. -/
def head (O1 : Mat 256 128) (O2 : Mat 128 128) (u : Fin 256 → EReal) : Row :=
  fun j => ∑ k : Fin 128, max (∑ l : Fin 256, u l * O1 (ix2 l k)) 0 * O2 (ix2 k j)

/-- A node's output row from its feature row `x` and its aggregated message row `a`. -/
def outRow (g1 b1 g2 b2 w : Row) (O1 : Mat 256 128) (O2 : Mat 128 128) (x a : Row) : Row :=
  head O1 O2 (cat (ln g2 b2 (mix w x (ln g1 b1 a))) (ln g1 b1 a))

/-- Row `r` of a matrix with 128 columns. -/
def rowOf {a : ℕ} (X : Mat a 128) (r : Fin a) : Row := fun l => X (ix2 r l)

/-- A one-axis array of 128 entries as a row. -/
def vecRow (v : (⟨1, ![128]⟩ : Shape).Idx → EReal) : Row := fun q => v (ix1 q)

/-- The message network applied to every row of a feature matrix. -/
def msgArr {a : ℕ} (W1 W2 : Mat 128 128) (X : Mat a 128) : Mat a 128 :=
  fun i => mlp W1 W2 (rowOf X (i 0)) (i 1)

/-- The node update applied to every row: row `r` of the result is `outRow` of row `r` of the features and row `r`
    of the aggregate. -/
def outArr {a : ℕ} (g1 b1 g2 b2 w : Row) (O1 : Mat 256 128) (O2 : Mat 128 128) (X A : Mat a 128) : Mat a 128 :=
  fun i => outRow g1 b1 g2 b2 w O1 O2 (rowOf X (i 0)) (rowOf A (i 0)) (i 1)

end Cert.RowSpec

end
-- ==== Proof.KernelRun.lean ====
/-
  The idealized kernel's run with its result array named.

  The program is two grid regions among stretches of host operations. Its run passes through five buffer states: the
  launch memory, the state after the first host stretch, the state the first region leaves (its output array holding
  what its grid points wrote back), the state after the second host stretch, and the state the second region leaves.
  Every weakly fair execution terminates without a fault in a state whose unscoped buffers hold the last of these; so
  the result buffer holds the last state's contents at the result, and each argument array what it held at launch.
-/
import proofs.«173865_j43980465111676_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument array as launched. -/
theorem run_value : θ_run defs (onTc (τ := τ) (main (F := F))) ⟨m, fun _ => 0, ρ⟩ (fun r => ∀ c : Dev nD,
      r.2.mem ((c.tc : Thread nD τ).loc main_v33) = W4 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v33 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.RunValue

end
-- ==== Proof.Mid.lean ====
/-
  What the host operations between the two grid regions leave in each buffer the regions read.

  The first stretch of host operations cuts the two rows out of the edge list and changes the format of the four weight
  matrices (a change of format is the identity on the extended reals); the second stretch gathers, scatters and divides
  to form the aggregate, and re-lays the five parameter rows from [128] to [1, 128]. Each lemma says what one buffer
  holds after a stretch, as a function of what the buffers held before it; a buffer no operation of the stretch writes
  holds what it held.
-/
import proofs.«173865_j43980465111676_2_alg».proof.Proof.Gen.KernelIdeal.Launch
import proofs.«173865_j43980465111676_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Mid

open Cert.KernelIdeal Cert.KernelIdeal.Gen Cert.RowSpec
open Idealize.ShloMosaic Idealize.ShloMosaic.TcCoe Idealize.ShloMosaic.ValueIdx Idealize.ShloMosaic.StableHlo
open Idealize.SL.Sem

variable (U : Valuation τ sig (Elt Ideal))

/-! ## The first stretch -/

theorem ops0_arg0 : after (hostOps0 (F := Ideal)) U (Proc.devRef .tc main_arg0) = U (Proc.devRef .tc main_arg0) := by
  after_results
theorem ops0_arg1 : after (hostOps0 (F := Ideal)) U (Proc.devRef .tc main_arg1) = U (Proc.devRef .tc main_arg1) := by
  after_results
theorem ops0_arg2 : after (hostOps0 (F := Ideal)) U (Proc.devRef .tc main_arg2) = U (Proc.devRef .tc main_arg2) := by
  after_results
theorem ops0_arg3 : after (hostOps0 (F := Ideal)) U (Proc.devRef .tc main_arg3) = U (Proc.devRef .tc main_arg3) := by
  after_results
theorem ops0_arg4 : after (hostOps0 (F := Ideal)) U (Proc.devRef .tc main_arg4) = U (Proc.devRef .tc main_arg4) := by
  after_results
theorem ops0_arg5 : after (hostOps0 (F := Ideal)) U (Proc.devRef .tc main_arg5) = U (Proc.devRef .tc main_arg5) := by
  after_results
theorem ops0_arg6 : after (hostOps0 (F := Ideal)) U (Proc.devRef .tc main_arg6) = U (Proc.devRef .tc main_arg6) := by
  after_results

/-- The two rows of the edge list, cut out and flattened. -/
theorem ops0_v1 : after (hostOps0 (F := Ideal)) U (Proc.devRef .tc main_v1)
    = shapeCast S640000 (extractStridedSlice S1x640000 ![0, 0] (U (Proc.devRef .tc main_arg1)) slices_S2x640000_S1x640000_0_0) shapeCasts_S1x640000_S640000 := by
  after_results; rfl
theorem ops0_v3 : after (hostOps0 (F := Ideal)) U (Proc.devRef .tc main_v3)
    = shapeCast S640000 (extractStridedSlice S1x640000 ![1, 0] (U (Proc.devRef .tc main_arg1)) slices_S2x640000_S1x640000_1_0) shapeCasts_S1x640000_S640000 := by
  after_results; rfl

/-- The four weight matrices in the narrower format: the same extended reals. -/
theorem ops0_v4 : after (hostOps0 (F := Ideal)) U (Proc.devRef .tc main_v4) = U (Proc.devRef .tc main_arg7) := by
  after_results; rfl
theorem ops0_v5 : after (hostOps0 (F := Ideal)) U (Proc.devRef .tc main_v5) = U (Proc.devRef .tc main_arg8) := by
  after_results; rfl
theorem ops0_v6 : after (hostOps0 (F := Ideal)) U (Proc.devRef .tc main_v6) = U (Proc.devRef .tc main_arg9) := by
  after_results; rfl
theorem ops0_v7 : after (hostOps0 (F := Ideal)) U (Proc.devRef .tc main_v7) = U (Proc.devRef .tc main_arg10) := by
  after_results; rfl

/-! ## The second stretch -/

theorem ops1_arg0 : after (hostOps1 (F := Ideal)) U (Proc.devRef .tc main_arg0) = U (Proc.devRef .tc main_arg0) := by
  after_results
theorem ops1_v6 : after (hostOps1 (F := Ideal)) U (Proc.devRef .tc main_v6) = U (Proc.devRef .tc main_v6) := by
  after_results
theorem ops1_v7 : after (hostOps1 (F := Ideal)) U (Proc.devRef .tc main_v7) = U (Proc.devRef .tc main_v7) := by
  after_results

/-- A parameter row re-laid from [128] to [1, 128] reads, in its one row, the entries of the parameter. -/
theorem relaid_row (v : (⟨1, ![128]⟩ : Shape).Idx → EReal) (h : (⟨1, ![128]⟩ : Shape).ShapeCasts ⟨2, ![1, 128]⟩) :
    rowOf (shapeCast ⟨2, ![1, 128]⟩ v h) (0 : Fin 1) = vecRow v :=
  funext fun q => shapeCast_a_1a_apply v h (0 : Fin 1) q

theorem ops1_v28 : rowOf (after (hostOps1 (F := Ideal)) U (Proc.devRef .tc main_v28)) (0 : Fin 1) = vecRow (U (Proc.devRef .tc main_arg2)) := by
  have e : after (hostOps1 (F := Ideal)) U (Proc.devRef .tc main_v28) = shapeCast S1x128 (U (Proc.devRef .tc main_arg2)) shapeCasts_S128_S1x128 := by
    after_results; rfl
  rw [e]; exact relaid_row _ _
theorem ops1_v29 : rowOf (after (hostOps1 (F := Ideal)) U (Proc.devRef .tc main_v29)) (0 : Fin 1) = vecRow (U (Proc.devRef .tc main_arg3)) := by
  have e : after (hostOps1 (F := Ideal)) U (Proc.devRef .tc main_v29) = shapeCast S1x128 (U (Proc.devRef .tc main_arg3)) shapeCasts_S128_S1x128 := by
    after_results; rfl
  rw [e]; exact relaid_row _ _
theorem ops1_v30 : rowOf (after (hostOps1 (F := Ideal)) U (Proc.devRef .tc main_v30)) (0 : Fin 1) = vecRow (U (Proc.devRef .tc main_arg4)) := by
  have e : after (hostOps1 (F := Ideal)) U (Proc.devRef .tc main_v30) = shapeCast S1x128 (U (Proc.devRef .tc main_arg4)) shapeCasts_S128_S1x128 := by
    after_results; rfl
  rw [e]; exact relaid_row _ _
theorem ops1_v31 : rowOf (after (hostOps1 (F := Ideal)) U (Proc.devRef .tc main_v31)) (0 : Fin 1) = vecRow (U (Proc.devRef .tc main_arg5)) := by
  have e : after (hostOps1 (F := Ideal)) U (Proc.devRef .tc main_v31) = shapeCast S1x128 (U (Proc.devRef .tc main_arg5)) shapeCasts_S128_S1x128 := by
    after_results; rfl
  rw [e]; exact relaid_row _ _
theorem ops1_v32 : rowOf (after (hostOps1 (F := Ideal)) U (Proc.devRef .tc main_v32)) (0 : Fin 1) = vecRow (U (Proc.devRef .tc main_arg6)) := by
  have e : after (hostOps1 (F := Ideal)) U (Proc.devRef .tc main_v32) = shapeCast S1x128 (U (Proc.devRef .tc main_arg6)) shapeCasts_S128_S1x128 := by
    after_results; rfl
  rw [e]; exact relaid_row _ _

end Cert.KernelIdeal.Mid

end
-- ==== Proof.KernelMid.lean ====
/-
  The arrays the two grid regions find, in terms of the launch memory.

  The first region finds the feature matrix as launched and the two message weight matrices (format changed: the same
  extended reals). The second region finds the feature matrix as launched, the five parameter rows re-laid as [1, 128],
  the two output weight matrices, and the aggregate the second host stretch formed from the first region's result. A
  region leaves its input arrays as it found them, and a buffer that is not one of a region's arrays as it was.
-/
import proofs.«173865_j43980465111676_2_alg».proof.Proof.Gen.KernelIdeal.Frame
import proofs.«173865_j43980465111676_2_alg».proof.Proof.Mid
import proofs.«173865_j43980465111676_2_alg».proof.Proof.Spec

set_option maxRecDepth 16384

noncomputable section

namespace Cert.KernelIdeal.KMid

open Cert.KernelIdeal Cert.KernelIdeal.Gen Cert.RowSpec
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg) (c : Dev nD)

/-! ## What the first region finds -/

theorem V1_arg0 : V1 m ρ c main_arg0 = m ((c : Thread nD τ).loc main_arg0) := Mid.ops0_arg0 (W0 m ρ c)
theorem V1_v4 : V1 m ρ c main_v4 = m ((c : Thread nD τ).loc main_arg7) := Mid.ops0_v4 (W0 m ρ c)
theorem V1_v5 : V1 m ρ c main_v5 = m ((c : Thread nD τ).loc main_arg8) := Mid.ops0_v5 (W0 m ρ c)

/-! ## What the first region leaves -/

/-- A buffer that is not one of the first region's four arrays is as the first host stretch left it. -/
theorem W2_keep (b : Ref sig .tc) (hb : ∀ w, Pipeline.arrRef spec0 w ≠ b) :
    W2 m ρ c (Proc.devRef .tc b) = after (hostOps0 (F := Ideal)) (W0 m ρ c) (Proc.devRef .tc b) :=
  W2_of_ne m ρ c b hb

/-- The feature matrix, an input array of the first region, is as launched. -/
theorem W2_arg0 : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (V1_arg0 m ρ c)

theorem W2_arg2 : W2 m ρ c (Proc.devRef .tc main_arg2) = m ((c : Thread nD τ).loc main_arg2) :=
  (W2_keep m ρ c main_arg2 (by decide)).trans (Mid.ops0_arg2 (W0 m ρ c))
theorem W2_arg3 : W2 m ρ c (Proc.devRef .tc main_arg3) = m ((c : Thread nD τ).loc main_arg3) :=
  (W2_keep m ρ c main_arg3 (by decide)).trans (Mid.ops0_arg3 (W0 m ρ c))
theorem W2_arg4 : W2 m ρ c (Proc.devRef .tc main_arg4) = m ((c : Thread nD τ).loc main_arg4) :=
  (W2_keep m ρ c main_arg4 (by decide)).trans (Mid.ops0_arg4 (W0 m ρ c))
theorem W2_arg5 : W2 m ρ c (Proc.devRef .tc main_arg5) = m ((c : Thread nD τ).loc main_arg5) :=
  (W2_keep m ρ c main_arg5 (by decide)).trans (Mid.ops0_arg5 (W0 m ρ c))
theorem W2_arg6 : W2 m ρ c (Proc.devRef .tc main_arg6) = m ((c : Thread nD τ).loc main_arg6) :=
  (W2_keep m ρ c main_arg6 (by decide)).trans (Mid.ops0_arg6 (W0 m ρ c))
theorem W2_v6 : W2 m ρ c (Proc.devRef .tc main_v6) = m ((c : Thread nD τ).loc main_arg9) :=
  (W2_keep m ρ c main_v6 (by decide)).trans (Mid.ops0_v6 (W0 m ρ c))
theorem W2_v7 : W2 m ρ c (Proc.devRef .tc main_v7) = m ((c : Thread nD τ).loc main_arg10) :=
  (W2_keep m ρ c main_v7 (by decide)).trans (Mid.ops0_v7 (W0 m ρ c))
theorem W2_v1 : W2 m ρ c (Proc.devRef .tc main_v1)
    = shapeCast S640000 (extractStridedSlice S1x640000 ![0, 0] (m ((c : Thread nD τ).loc main_arg1)) slices_S2x640000_S1x640000_0_0) shapeCasts_S1x640000_S640000 :=
  (W2_keep m ρ c main_v1 (by decide)).trans (Mid.ops0_v1 (W0 m ρ c))
theorem W2_v3 : W2 m ρ c (Proc.devRef .tc main_v3)
    = shapeCast S640000 (extractStridedSlice S1x640000 ![1, 0] (m ((c : Thread nD τ).loc main_arg1)) slices_S2x640000_S1x640000_1_0) shapeCasts_S1x640000_S640000 :=
  (W2_keep m ρ c main_v3 (by decide)).trans (Mid.ops0_v3 (W0 m ρ c))

/-! ## What the second region finds -/

theorem V3_arg0 : V3 m ρ c main_arg0 = m ((c : Thread nD τ).loc main_arg0) :=
  (Mid.ops1_arg0 (W2 m ρ c)).trans (W2_arg0 m ρ c)
theorem V3_v6 : V3 m ρ c main_v6 = m ((c : Thread nD τ).loc main_arg9) :=
  (Mid.ops1_v6 (W2 m ρ c)).trans (W2_v6 m ρ c)
theorem V3_v7 : V3 m ρ c main_v7 = m ((c : Thread nD τ).loc main_arg10) :=
  (Mid.ops1_v7 (W2 m ρ c)).trans (W2_v7 m ρ c)
theorem V3_v28 : rowOf (V3 m ρ c main_v28) (0 : Fin 1) = vecRow (m ((c : Thread nD τ).loc main_arg2)) :=
  (Mid.ops1_v28 (W2 m ρ c)).trans (congrArg vecRow (W2_arg2 m ρ c))
theorem V3_v29 : rowOf (V3 m ρ c main_v29) (0 : Fin 1) = vecRow (m ((c : Thread nD τ).loc main_arg3)) :=
  (Mid.ops1_v29 (W2 m ρ c)).trans (congrArg vecRow (W2_arg3 m ρ c))
theorem V3_v30 : rowOf (V3 m ρ c main_v30) (0 : Fin 1) = vecRow (m ((c : Thread nD τ).loc main_arg4)) :=
  (Mid.ops1_v30 (W2 m ρ c)).trans (congrArg vecRow (W2_arg4 m ρ c))
theorem V3_v31 : rowOf (V3 m ρ c main_v31) (0 : Fin 1) = vecRow (m ((c : Thread nD τ).loc main_arg5)) :=
  (Mid.ops1_v31 (W2 m ρ c)).trans (congrArg vecRow (W2_arg5 m ρ c))
theorem V3_v32 : rowOf (V3 m ρ c main_v32) (0 : Fin 1) = vecRow (m ((c : Thread nD τ).loc main_arg6)) :=
  (Mid.ops1_v32 (W2 m ρ c)).trans (congrArg vecRow (W2_arg6 m ρ c))

end Cert.KernelIdeal.KMid

end
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.Payloads.lean ====
/-
  The two kernel bodies read one entry at a time.

  Each body is a chain of array operations. Read at row `p`, column `q`, on the extended reals, every link is an
  elementary fact: a change of float format is the identity, a cast to the same shape is the identity, a matrix product
  into the zero array is the sum of products over the contraction coordinate, a maximum against the broadcast zero is
  `max · 0`, a lane sum kept as a column and broadcast back is the row's sum read at every column, and a one-row array
  broadcast over many rows reads its only row. Chained, the message body at `(p, q)` is the two-layer network of row
  `p`, and the update body at `(p, q)` is the node update of row `p` of the features and row `p` of the aggregate.
-/
import proofs.«173865_j43980465111676_2_alg».proof.Proof.Gen.KernelIdeal.Skeleton
import proofs.«173865_j43980465111676_2_alg».proof.Proof.Spec
import proofs.«173865_j43980465111676_2_alg».proof.Proof.LibKeepdims
import proofs.«173865_j43980465111676_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.RowSpec Idealize.ShloMosaic Idealize.ShloMosaic.ValueIdx

/-! ## A two-layer network read at an entry -/

/-- A product into the zero array, read at `(p, q)`: the sum over the contraction coordinate. -/
theorem dot_apply (M K N : ℕ) (l : FVec Ideal ⟨2, ![M, K]⟩ .bf16) (r : FVec Ideal ⟨2, ![K, N]⟩ .bf16)
    (p : Fin M) (q : Fin N) :
    FloatOps.matmul (DotDims.plain M K N) none l r (constant ⟨2, ![M, N]⟩ .f32 0x00000000#32) (ix2 p q)
      = ∑ k : Fin K, l (ix2 p k) * r (ix2 k q) :=
  Cert.LibPlainDot.matmul_zero_apply M K N none l r (ix2 p q)

/-- Two products with the maximum against zero between them, read at `(p, q)`: `relu (a · W1) · W2` of row `p`. -/
theorem twoLayer_apply (M K N P : ℕ) (a : FVec Ideal ⟨2, ![M, K]⟩ .bf16) (W1 : FVec Ideal ⟨2, ![K, N]⟩ .bf16)
    (W2 : FVec Ideal ⟨2, ![N, P]⟩ .bf16) (h : FTy.bits .bf16 < FTy.bits .f32) (p : Fin M) (q : Fin P) :
    FloatOps.matmul (DotDims.plain M N P) none
        (truncf .bf16 (maximumf (FloatOps.matmul (DotDims.plain M K N) none a W1 (constant ⟨2, ![M, N]⟩ .f32 0x00000000#32))
          (broadcast ⟨2, ![M, N]⟩ (Scalar.ofBits (F := Ideal) .f32 0x00000000#32))) h)
        W2 (constant ⟨2, ![M, P]⟩ .f32 0x00000000#32) (ix2 p q)
      = ∑ k : Fin N, max (∑ l : Fin K, a (ix2 p l) * W1 (ix2 l k)) 0 * W2 (ix2 k q) := by
  refine (dot_apply M N P _ W2 p q).trans ?_
  refine Finset.sum_congr rfl fun k _ => ?_
  refine congrArg (· * W2 (ix2 k q)) ?_
  show max (FloatOps.matmul (DotDims.plain M K N) none a W1 (constant ⟨2, ![M, N]⟩ .f32 0x00000000#32) (ix2 p k))
      (Ideal.ofBits .f32 0x00000000#32) = _
  rw [Ideal.ofBits_zero_f32, dot_apply]

/-! ## The message body -/

/-- The message body at `(p, q)`: the two-layer network of row `p` of the features. -/
theorem pay0_apply (x0 : Vec Ideal S5000x128 .f32) (x1 x2 : Vec Ideal S128x128 .bf16) (p : Fin 5000) (q : Fin 128) :
    k0_pay1 (F := Ideal) x0 x1 x2 (ix2 p q) = mlp x1 x2 (rowOf x0 p) q := by
  unfold k0_pay1
  simp only [shapeCast_self]
  exact twoLayer_apply 5000 128 128 128 (truncf .bf16 x0 bitsLt_bf16_f32) x1 x2 bitsLt_bf16_f32 p q

/-! ## Row statistics, row broadcasts and the side-by-side layout, read at an entry

Every lemma below is stated over array VARIABLES and takes what is known of them in row `p` as hypotheses, so that the
payload theorems after them are instances. -/

/-- A reciprocal square root read at an index. -/
theorem rsqrt_apply {s : Shape} {φ : FTy} (x : FVec Ideal s φ) (i : s.Idx) : rsqrt x i = Ideal.rsqrt (x i) := rfl

/-- A lane sum kept as a column and divided by a broadcast scalar, at `(p, u)`: the row's sum over the scalar. -/
theorem rowMean_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (c : Ideal .f32) (p : Fin a) (u : Fin 1) :
    divf (shapeCast ⟨2, ![a, 1]⟩ (multiReduction .add [1] ⟨1, ![a]⟩ src 0x00000000#32 h hφ hacc) hc)
        (broadcast ⟨2, ![a, 1]⟩ c) (ix2 p u)
      = Ideal.div (∑ k : Fin b, src (ix2 p k)) c := by
  show Ideal.div (shapeCast ⟨2, ![a, 1]⟩ (multiReduction .add [1] ⟨1, ![a]⟩ src 0x00000000#32 h hφ hacc) hc (ix2 p u)) c = _
  rw [Cert.Keepdims.shapeCast_a_a1_apply, Cert.Keepdims.laneSum_apply]

/-- The column of row sums over 128, at row `p`: the mean of that row. -/
theorem colMean_apply {a : ℕ} (v : FVec Ideal ⟨2, ![a, 128]⟩ .f32) (h : (⟨2, ![a, 128]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (p : Fin a) (R : Row) (hv : ∀ k, v (ix2 p k) = R k) :
    divf (shapeCast ⟨2, ![a, 1]⟩ (multiReduction .add [1] ⟨1, ![a]⟩ v 0x00000000#32 h hφ hacc) hc)
        (broadcast ⟨2, ![a, 1]⟩ (Scalar.ofBits (F := Ideal) .f32 0x43000000#32)) (ix2 p (0 : Fin 1))
      = mean R := by
  refine (rowMean_apply v h hφ hacc hc _ p 0).trans ?_
  simp only [hv]
  rfl

/-- A row minus its mean column broadcast back, squared, at `(p, k)`. -/
theorem centredSq_apply {a : ℕ} (v : FVec Ideal ⟨2, ![a, 128]⟩ .f32) (m : FVec Ideal ⟨2, ![a, 1]⟩ .f32)
    (hb : (⟨2, ![a, 1]⟩ : Shape).Broadcasts ⟨2, ![a, 128]⟩) (p : Fin a) (k : Fin 128) (R : Row) (μ : EReal)
    (hv : v (ix2 p k) = R k) (hm : m (ix2 p (0 : Fin 1)) = μ) :
    mulf (subf v (broadcastTo ⟨2, ![a, 128]⟩ m hb)) (subf v (broadcastTo ⟨2, ![a, 128]⟩ m hb)) (ix2 p k)
      = (R k - μ) * (R k - μ) := by
  show (v (ix2 p k) - broadcastTo ⟨2, ![a, 128]⟩ m hb (ix2 p k)) * (v (ix2 p k) - broadcastTo ⟨2, ![a, 128]⟩ m hb (ix2 p k)) = _
  rw [Cert.Keepdims.broadcastTo_a1_ab_apply, hv, hm]

/-- The second half of a normalisation at `(p, q)`: from the row `R`, its mean column and its centred squares to
    `ln g b R`: the second moment is the mean of the squares, the small constant is added, the reciprocal square root
    is broadcast back along the row, and the gain and bias rows are read at column `q`. -/
theorem lnTail_apply {a : ℕ} (v sq : FVec Ideal ⟨2, ![a, 128]⟩ .f32) (m : FVec Ideal ⟨2, ![a, 1]⟩ .f32)
    (g b : FVec Ideal ⟨2, ![1, 128]⟩ .f32) (h : (⟨2, ![a, 128]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, 128]⟩)
    (hs : (⟨2, ![1, 128]⟩ : Shape).ShapeCasts ⟨2, ![1, 128]⟩) (hr : (⟨2, ![1, 128]⟩ : Shape).Broadcasts ⟨2, ![a, 128]⟩)
    (p : Fin a) (q : Fin 128) (R : Row) (hv : v (ix2 p q) = R q) (hm : m (ix2 p (0 : Fin 1)) = mean R)
    (hsq : ∀ k, sq (ix2 p k) = (R k - mean R) * (R k - mean R)) :
    addf (mulf (mulf (subf v (broadcastTo ⟨2, ![a, 128]⟩ m hb))
        (broadcastTo ⟨2, ![a, 128]⟩ (rsqrt (addf
          (divf (shapeCast ⟨2, ![a, 1]⟩ (multiReduction .add [1] ⟨1, ![a]⟩ sq 0x00000000#32 h hφ hacc) hc)
            (broadcast ⟨2, ![a, 1]⟩ (Scalar.ofBits (F := Ideal) .f32 0x43000000#32)))
          (broadcast ⟨2, ![a, 1]⟩ (Scalar.ofBits (F := Ideal) .f32 0x3727C5AC#32)))) hb))
        (broadcastTo ⟨2, ![a, 128]⟩ (shapeCast ⟨2, ![1, 128]⟩ g hs) hr))
        (broadcastTo ⟨2, ![a, 128]⟩ (shapeCast ⟨2, ![1, 128]⟩ b hs) hr) (ix2 p q)
      = ln (rowOf g (0 : Fin 1)) (rowOf b (0 : Fin 1)) R q := by
  simp only [shapeCast_self, addf_apply, mulf_apply, subf_apply, rsqrt_apply, broadcast_apply, broadcastTo_1b_ab_apply,
    Cert.Keepdims.broadcastTo_a1_ab_apply, hv, hm]
  rw [rowMean_apply]
  simp only [hsq]
  rfl

/-- The mixture at `(p, q)`: `x + (x - â) · w` with the weight row read at column `q`. -/
theorem mix_apply {a : ℕ} (x A : FVec Ideal ⟨2, ![a, 128]⟩ .f32) (w : FVec Ideal ⟨2, ![1, 128]⟩ .f32)
    (hs : (⟨2, ![1, 128]⟩ : Shape).ShapeCasts ⟨2, ![1, 128]⟩) (hr : (⟨2, ![1, 128]⟩ : Shape).Broadcasts ⟨2, ![a, 128]⟩)
    (p : Fin a) (q : Fin 128) (Av : Row) (hA : A (ix2 p q) = Av q) :
    addf x (mulf (subf x A) (broadcastTo ⟨2, ![a, 128]⟩ (shapeCast ⟨2, ![1, 128]⟩ w hs) hr)) (ix2 p q)
      = mix (rowOf w (0 : Fin 1)) (rowOf x p) Av q := by
  simp only [shapeCast_self, addf_apply, mulf_apply, subf_apply, broadcastTo_1b_ab_apply, hA]
  rfl

/-- Two `[a, 128]` arrays laid side by side along the columns, at `(p, l)`: the first array's row `p` at `l` below
    128, the second's at `l - 128` from there on. -/
theorem concat_apply {a : ℕ} (f g : FVec Ideal ⟨2, ![a, 128]⟩ .f32)
    (h : Shape.Concatenates [(⟨2, ![a, 128]⟩ : Shape), ⟨2, ![a, 128]⟩] ⟨2, ![a, 256]⟩ 1) (p : Fin a) (l : Fin 256)
    (Fv Gv : Row) (hf : ∀ k, f (ix2 p k) = Fv k) (hg : ∀ k, g (ix2 p k) = Gv k) :
    concatenate ⟨2, ![a, 256]⟩ 1 [⟨⟨2, ![a, 128]⟩, f⟩, ⟨⟨2, ![a, 128]⟩, g⟩] h (ix2 p l) = cat Fv Gv l := by
  unfold cat
  split
  · next hl =>
    refine (concatenate_pair_apply_left 1 f g h (ix2 p l) rfl (ix2 p ⟨l.val, hl⟩) fun c => ?_).trans (hf _)
    match c with
    | ⟨0, _⟩ => rfl
    | ⟨1, _⟩ => rfl
  · next hl =>
    refine (concatenate_pair_apply_right 1 f g h (ix2 p l) rfl rfl (ix2 p ⟨l.val - 128, by omega⟩) (fun c hc => ?_) ?_).trans (hg _)
    · match c, hc with
      | ⟨0, _⟩, _ => rfl
      | ⟨1, _⟩, hc => exact absurd rfl hc
    · show l.val - 128 + 128 = l.val
      omega

/-- The output network's body at `(p, q)`: the two products with the maximum between them, of a 256-entry row. -/
theorem headBody_apply {a : ℕ} (u : FVec Ideal ⟨2, ![a, 256]⟩ .f32) (O1 : FVec Ideal ⟨2, ![256, 128]⟩ .bf16)
    (O2 : FVec Ideal ⟨2, ![128, 128]⟩ .bf16) (hb : FTy.bits .bf16 < FTy.bits .f32)
    (h1 : (⟨2, ![256, 128]⟩ : Shape).ShapeCasts ⟨2, ![256, 128]⟩) (h2 : (⟨2, ![128, 128]⟩ : Shape).ShapeCasts ⟨2, ![128, 128]⟩)
    (p : Fin a) (q : Fin 128) (U : Fin 256 → EReal) (hu : ∀ l, u (ix2 p l) = U l) :
    FloatOps.matmul (DotDims.plain a 128 128) none
        (truncf .bf16 (maximumf (FloatOps.matmul (DotDims.plain a 256 128) none (truncf .bf16 u hb)
            (shapeCast ⟨2, ![256, 128]⟩ O1 h1) (constant ⟨2, ![a, 128]⟩ .f32 0x00000000#32))
          (broadcast ⟨2, ![a, 128]⟩ (Scalar.ofBits (F := Ideal) .f32 0x00000000#32))) hb)
        (shapeCast ⟨2, ![128, 128]⟩ O2 h2) (constant ⟨2, ![a, 128]⟩ .f32 0x00000000#32) (ix2 p q)
      = head O1 O2 U q := by
  refine (twoLayer_apply a 256 128 128 _ _ _ hb p q).trans ?_
  simp only [shapeCast_self, truncf_apply, hu]
  rfl

/-! ## The update body, payload by payload -/

/-- The normalised aggregate at `(p, q)`: `ln` of row `p` of the aggregate with the first gain and bias. -/
theorem pay2_apply (x1 : Vec Ideal S2000x128 .f32) (x2 x3 : Vec Ideal S1x128 .f32) (p : Fin 2000) (q : Fin 128) :
    k1_pay2 (F := Ideal) x1 x2 x3 (ix2 p q) = ln (rowOf x2 (0 : Fin 1)) (rowOf x3 (0 : Fin 1)) (rowOf x1 p) q := by
  have hx : ∀ k, shapeCast S2000x128 x1 shapeCasts_S2000x128_S2000x128 (ix2 p k) = rowOf x1 p k :=
    fun k => congrFun (shapeCast_self x1 _) (ix2 p k)
  have hm := colMean_apply (shapeCast S2000x128 x1 shapeCasts_S2000x128_S2000x128) reduces_S2000x128_S2000 (.inl rfl) rfl
    shapeCasts_S2000_S2000x1 p (rowOf x1 p) hx
  exact lnTail_apply _ _ _ x2 x3 _ _ _ _ _ _ _ p q (rowOf x1 p) (hx q) hm
    (fun k => centredSq_apply _ _ _ p k _ _ (hx k) hm)

/-- The mixture at `(p, q)`: the feature row pushed away from the normalised aggregate. -/
theorem pay3_apply (x0 x1 : Vec Ideal S2000x128 .f32) (x2 x3 x6 : Vec Ideal S1x128 .f32) (p : Fin 2000) (q : Fin 128) :
    k1_pay3 (F := Ideal) x0 x1 x2 x3 x6 (ix2 p q)
      = mix (rowOf x6 (0 : Fin 1)) (rowOf x0 p) (ln (rowOf x2 (0 : Fin 1)) (rowOf x3 (0 : Fin 1)) (rowOf x1 p)) q :=
  mix_apply x0 (k1_pay2 x1 x2 x3) x6 _ _ p q _ (pay2_apply x1 x2 x3 p q)

/-- The mixture's mean column at row `p`. -/
theorem pay4_apply (x0 x1 : Vec Ideal S2000x128 .f32) (x2 x3 x6 : Vec Ideal S1x128 .f32) (p : Fin 2000) :
    k1_pay4 (F := Ideal) x0 x1 x2 x3 x6 (ix2 p (0 : Fin 1))
      = mean (mix (rowOf x6 (0 : Fin 1)) (rowOf x0 p) (ln (rowOf x2 (0 : Fin 1)) (rowOf x3 (0 : Fin 1)) (rowOf x1 p))) :=
  colMean_apply (k1_pay3 x0 x1 x2 x3 x6) _ _ _ _ p _ (fun k => pay3_apply x0 x1 x2 x3 x6 p k)

/-- The mixture's centred square at `(p, k)`. -/
theorem pay5_apply (x0 x1 : Vec Ideal S2000x128 .f32) (x2 x3 x6 : Vec Ideal S1x128 .f32) (p : Fin 2000) (k : Fin 128) :
    k1_pay5 (F := Ideal) x0 x1 x2 x3 x6 (ix2 p k)
      = (mix (rowOf x6 (0 : Fin 1)) (rowOf x0 p) (ln (rowOf x2 (0 : Fin 1)) (rowOf x3 (0 : Fin 1)) (rowOf x1 p)) k
          - mean (mix (rowOf x6 (0 : Fin 1)) (rowOf x0 p) (ln (rowOf x2 (0 : Fin 1)) (rowOf x3 (0 : Fin 1)) (rowOf x1 p))))
        * (mix (rowOf x6 (0 : Fin 1)) (rowOf x0 p) (ln (rowOf x2 (0 : Fin 1)) (rowOf x3 (0 : Fin 1)) (rowOf x1 p)) k
          - mean (mix (rowOf x6 (0 : Fin 1)) (rowOf x0 p) (ln (rowOf x2 (0 : Fin 1)) (rowOf x3 (0 : Fin 1)) (rowOf x1 p)))) :=
  centredSq_apply (k1_pay3 x0 x1 x2 x3 x6) (k1_pay4 x0 x1 x2 x3 x6) _ p k _ _ (pay3_apply x0 x1 x2 x3 x6 p k)
    (pay4_apply x0 x1 x2 x3 x6 p)

/-- The last body at `(p, q)` over what is known of its four carried arrays in row `p`: the normalised aggregate
    `A`, the mixture `M`, the mixture's mean and its centred squares. -/
theorem pay1_core (v28 v34 : FVec Ideal S2000x128 .f32) (v38 : FVec Ideal S2000x1 .f32) (v41 : FVec Ideal S2000x128 .f32)
    (x4 x5 : Vec Ideal S1x128 .f32) (x7 : Vec Ideal S256x128 .bf16) (x8 : Vec Ideal S128x128 .bf16)
    (p : Fin 2000) (q : Fin 128) (A M : Row) (hA : ∀ k, v28 (ix2 p k) = A k) (hM : ∀ k, v34 (ix2 p k) = M k)
    (h38 : v38 (ix2 p (0 : Fin 1)) = mean M) (h41 : ∀ k, v41 (ix2 p k) = (M k - mean M) * (M k - mean M)) :
    k1_pay1 (F := Ideal) v28 v34 v38 v41 x4 x5 x7 x8 (ix2 p q)
      = head x7 x8 (cat (ln (rowOf x4 (0 : Fin 1)) (rowOf x5 (0 : Fin 1)) M) A) q := by
  refine headBody_apply _ x7 x8 _ _ _ p q _ (fun l => ?_)
  refine concat_apply _ v28 _ p l _ A (fun k => ?_) hA
  exact lnTail_apply v34 v41 v38 x4 x5 _ _ _ _ _ _ _ p k M (hM k) h38 h41

/-- The update body at `(p, q)`: the node update of row `p` of the features and row `p` of the aggregate. -/
theorem pay1_apply (x0 x1 : Vec Ideal S2000x128 .f32) (x2 x3 x4 x5 x6 : Vec Ideal S1x128 .f32)
    (x7 : Vec Ideal S256x128 .bf16) (x8 : Vec Ideal S128x128 .bf16) (p : Fin 2000) (q : Fin 128) :
    k1_pay1 (F := Ideal) (k1_pay2 x1 x2 x3) (k1_pay3 x0 x1 x2 x3 x6) (k1_pay4 x0 x1 x2 x3 x6) (k1_pay5 x0 x1 x2 x3 x6)
        x4 x5 x7 x8 (ix2 p q)
      = outRow (rowOf x2 (0 : Fin 1)) (rowOf x3 (0 : Fin 1)) (rowOf x4 (0 : Fin 1)) (rowOf x5 (0 : Fin 1))
          (rowOf x6 (0 : Fin 1)) x7 x8 (rowOf x0 p) (rowOf x1 p) q :=
  pay1_core _ _ _ _ x4 x5 x7 x8 p q _ _ (fun k => pay2_apply x1 x2 x3 p k) (fun k => pay3_apply x0 x1 x2 x3 x6 p k)
    (pay4_apply x0 x1 x2 x3 x6 p) (fun k => pay5_apply x0 x1 x2 x3 x6 p k)

end Cert.KernelIdeal.Pay

end
-- ==== Proof.Region0.lean ====
/-
  The first grid region: the message network of every node.

  The grid has eight points; point `t` reads rows `5000 t … 5000 t + 4999` of the feature matrix and the two whole
  weight matrices, and writes back the message network of those rows as rows `5000 t … 5000 t + 4999` of the result.
  A row of a block is a row of the array (block index times block height plus the row inside the block), so what each
  point writes back is its block of ONE whole-array function — the message network applied to every row —, and the
  eight blocks fill the array.
-/
import proofs.«173865_j43980465111676_2_alg».proof.Proof.Gen.KernelIdeal.Frame
import proofs.«173865_j43980465111676_2_alg».proof.Proof.Spec
import proofs.«173865_j43980465111676_2_alg».proof.Proof.Payloads
import Idealize.ShloMosaic.Lib.Pipeline.Value
import Idealize.ShloMosaic.Lib.ValueIdx

set_option maxRecDepth 16384

noncomputable section

namespace Cert.KernelIdeal.Region0

open Cert.KernelIdeal Cert.KernelIdeal.Gen Cert.RowSpec Cert.KernelIdeal.Pay
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The zero offset of a whole-buffer rectangle. -/
theorem hz : (![0, 0] : Fin 2 → Nat) = fun _ => 0 := funext fun a => by fin_cases a <;> rfl

/-- The block index of each window at each grid point: the feature matrix and the result move down one block per
    point, the weight matrices stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the message network applied to every row of the feature matrix. -/
theorem flushed_eq (c : Dev nD) (t : Fin cfg0.N) :
    (dat0 V c).flushed 3 t = ((cfg0.win 3).blk t).view.read (Elt Ideal)
      (msgArr (V c main_v4) (V c main_v5) (V c main_arg0)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz]
  funext y
  obtain ⟨e0, e1, e2, e3, e4, e5, e6, e7⟩ := idx_facts t
  have hN : cfg0.N = 8 := N_0
  have ht : t.val < 8 := by have := t.isLt; omega
  have hy0 : (y 0).val < 5000 := (y 0).isLt
  have hy1 : (y 1).val < 128 := (y 1).isLt
  let p : Fin 5000 := ⟨(y 0).val, hy0⟩
  let q : Fin 128 := ⟨(y 1).val, hy1⟩
  have ey : (win0 3).xinj (grid0.coords t) y = ix2 p q := by
    funext a; apply Fin.ext
    match a with
    | ⟨0, _⟩ => rfl
    | ⟨1, _⟩ => rfl
  show k0_pay1 (iblk0 V c 0 t) (iblk0 V c 1 t) (iblk0 V c 2 t) ((win0 3).xinj (grid0.coords t) y)
    = msgArr (V c main_v4) (V c main_v5) (V c main_arg0) (((cfg0.win 3).blk t).view.emb y)
  rw [ey]
  refine (pay0_apply _ _ _ p q).trans ?_
  have er : ((cfg0.win 3).blk t).view.emb y = ix2 (⟨t.val * 5000 + p.val, by omega⟩ : Fin 40000) q := by
    funext a; apply Fin.ext
    match a with
    | ⟨0, _⟩ => show win0_3.index t (0 : Fin 2) * 5000 + 1 * (y 0).val = t.val * 5000 + (y 0).val; rw [e6]; omega
    | ⟨1, _⟩ => show win0_3.index t (1 : Fin 2) * 128 + 1 * (y 1).val = (y 1).val; rw [e7]; omega
  rw [er]
  show mlp (iblk0 V c 1 t) (iblk0 V c 2 t) (rowOf (iblk0 V c 0 t) p) q
    = mlp (V c main_v4) (V c main_v5) (rowOf (V c main_arg0) (⟨t.val * 5000 + p.val, by omega⟩ : Fin 40000)) q
  have b1 : iblk0 V c 1 t = V c main_v4 := by
    funext z
    show V c main_v4 (((cfg0.win 1).blk t).view.emb z) = V c main_v4 z
    refine congrArg _ (funext fun a => Fin.ext ?_)
    match a with
    | ⟨0, _⟩ => show win0_1.index t (0 : Fin 2) * 128 + 1 * (z 0).val = (z 0).val; rw [e2]; omega
    | ⟨1, _⟩ => show win0_1.index t (1 : Fin 2) * 128 + 1 * (z 1).val = (z 1).val; rw [e3]; omega
  have b2 : iblk0 V c 2 t = V c main_v5 := by
    funext z
    show V c main_v5 (((cfg0.win 2).blk t).view.emb z) = V c main_v5 z
    refine congrArg _ (funext fun a => Fin.ext ?_)
    match a with
    | ⟨0, _⟩ => show win0_2.index t (0 : Fin 2) * 128 + 1 * (z 0).val = (z 0).val; rw [e4]; omega
    | ⟨1, _⟩ => show win0_2.index t (1 : Fin 2) * 128 + 1 * (z 1).val = (z 1).val; rw [e5]; omega
  have b0 : rowOf (iblk0 V c 0 t) p = rowOf (V c main_arg0) (⟨t.val * 5000 + p.val, by omega⟩ : Fin 40000) := by
    funext l
    show V c main_arg0 (((cfg0.win 0).blk t).view.emb (ix2 p l)) = V c main_arg0 (ix2 (⟨t.val * 5000 + p.val, by omega⟩ : Fin 40000) l)
    refine congrArg _ (funext fun a => Fin.ext ?_)
    match a with
    | ⟨0, _⟩ => show win0_0.index t (0 : Fin 2) * 5000 + 1 * p.val = t.val * 5000 + p.val; rw [e0]; omega
    | ⟨1, _⟩ => show win0_0.index t (1 : Fin 2) * 128 + 1 * l.val = l.val; rw [e1]; omega
  rw [b1, b2, b0]

/-- Row `r` of the message array lies in the block of point `r / 5000`: the eight blocks of 5000 rows fill it. -/
theorem final (c : Dev nD) : (dat0 V c).arrAt 3 cfg0.N = msgArr (V c main_v4) (V c main_v5) (V c main_arg0) :=
  (dat0 V c).arrAt_eq_of_cover 3 _ (fun t _ => flushed_eq V c t) fun i => by
    have hi0 : (i 0).val < 40000 := (i 0).isLt
    have hi1 : (i 1).val < 128 := (i 1).isLt
    have hN : cfg0.N = 8 := N_0
    have hlt : (i 0).val / 5000 < cfg0.N := by omega
    refine ⟨⟨(i 0).val / 5000, hlt⟩, flush0_3 _, ?_⟩
    obtain ⟨e0, e1, e2, e3, e4, e5, e6, e7⟩ := idx_facts ⟨(i 0).val / 5000, hlt⟩
    show i ∈ ((View.whole main_v8).slice (win0_3.rect ⟨(i 0).val / 5000, hlt⟩)).set
    rw [View.set_slice_whole, Rect.mem_set_unit]
    intro a
    match a with
    | ⟨0, _⟩ =>
      show win0_3.index ⟨(i 0).val / 5000, hlt⟩ (0 : Fin 2) * 5000 ≤ (i 0).val ∧ (i 0).val < win0_3.index ⟨(i 0).val / 5000, hlt⟩ (0 : Fin 2) * 5000 + 5000
      rw [e6]; show (i 0).val / 5000 * 5000 ≤ (i 0).val ∧ (i 0).val < (i 0).val / 5000 * 5000 + 5000; omega
    | ⟨1, _⟩ =>
      show win0_3.index ⟨(i 0).val / 5000, hlt⟩ (1 : Fin 2) * 128 ≤ (i 1).val ∧ (i 1).val < win0_3.index ⟨(i 0).val / 5000, hlt⟩ (1 : Fin 2) * 128 + 128
      rw [e7]; omega

end Cert.KernelIdeal.Region0

end
-- ==== Proof.Region1.lean ====
/-
  The second grid region: the node update of every node.

  The grid has twenty points; point `t` reads rows `2000 t … 2000 t + 1999` of the feature matrix and of the aggregate,
  the five parameter rows and the two output weight matrices whole, and writes back the node update of those rows. As
  in the first region a row of a block is a row of the array, the update of a row depends on that row of the two
  matrices only, so each point writes back its block of ONE whole-array function, and the twenty blocks fill the array.
-/
import proofs.«173865_j43980465111676_2_alg».proof.Proof.Gen.KernelIdeal.Frame
import proofs.«173865_j43980465111676_2_alg».proof.Proof.Spec
import proofs.«173865_j43980465111676_2_alg».proof.Proof.Payloads
import Idealize.ShloMosaic.Lib.Pipeline.Value
import Idealize.ShloMosaic.Lib.ValueIdx

set_option maxRecDepth 16384

noncomputable section

namespace Cert.KernelIdeal.Region1

open Cert.KernelIdeal Cert.KernelIdeal.Gen Cert.RowSpec Cert.KernelIdeal.Pay
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The zero offset of a whole-buffer rectangle. -/
theorem hz : (![0, 0] : Fin 2 → Nat) = fun _ => 0 := funext fun a => by fin_cases a <;> rfl

/-- The block index of each window at each grid point: the feature matrix, the aggregate and the result move down
    one block per point, every other window stays. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0 :=
  (by decide +kernel : ∀ t : Fin grid1.N, _)

/-- The array the second region leaves, as a function of the arrays it finds. -/
abbrev result (c : Dev nD) : Mat 40000 128 :=
  outArr (rowOf (V c main_v28) (0 : Fin 1)) (rowOf (V c main_v29) (0 : Fin 1)) (rowOf (V c main_v30) (0 : Fin 1))
    (rowOf (V c main_v31) (0 : Fin 1)) (rowOf (V c main_v32) (0 : Fin 1)) (V c main_v6) (V c main_v7) (V c main_arg0) (V c main_v27)

/-- What point `t` writes back is block `t` of the node update applied to every row. -/
theorem flushed_eq (c : Dev nD) (t : Fin cfg1.N) :
    (dat1 V c).flushed 9 t = ((cfg1.win 9).blk t).view.read (Elt Ideal) (result V c) := by
  show (cfg1.win 9).cut (grid1.coords t) ((dat1 V c).after 9 t) = _
  rw [after1_9]
  unfold out1_9
  rw [View.canon_unit_zero hz]
  simp only [View.ld_unit_zero (S := S2000x128) hz, View.ld_unit_zero (S := S1x128) hz, View.ld_unit_zero (S := S256x128) hz, View.ld_unit_zero (S := S128x128) hz]
  funext y
  obtain ⟨e0, e1, e2, e3, e4, e5, e6, e7, e8, e9, e10, e11, e12, e13, e14, e15, e16, e17, e18, e19⟩ := idx_facts t
  have hN : cfg1.N = 20 := N_1
  have ht : t.val < 20 := by have := t.isLt; omega
  have hy0 : (y 0).val < 2000 := (y 0).isLt
  have hy1 : (y 1).val < 128 := (y 1).isLt
  let p : Fin 2000 := ⟨(y 0).val, hy0⟩
  let q : Fin 128 := ⟨(y 1).val, hy1⟩
  have ey : (win1 9).xinj (grid1.coords t) y = ix2 p q := by
    funext a; apply Fin.ext
    match a with
    | ⟨0, _⟩ => rfl
    | ⟨1, _⟩ => rfl
  show k1_pay1 (k1_pay2 (iblk1 V c 1 t) (iblk1 V c 2 t) (iblk1 V c 3 t)) (k1_pay3 (iblk1 V c 0 t) (iblk1 V c 1 t) (iblk1 V c 2 t) (iblk1 V c 3 t) (iblk1 V c 6 t))
      (k1_pay4 (iblk1 V c 0 t) (iblk1 V c 1 t) (iblk1 V c 2 t) (iblk1 V c 3 t) (iblk1 V c 6 t)) (k1_pay5 (iblk1 V c 0 t) (iblk1 V c 1 t) (iblk1 V c 2 t) (iblk1 V c 3 t) (iblk1 V c 6 t))
      (iblk1 V c 4 t) (iblk1 V c 5 t) (iblk1 V c 7 t) (iblk1 V c 8 t) ((win1 9).xinj (grid1.coords t) y)
    = result V c (((cfg1.win 9).blk t).view.emb y)
  rw [ey]
  refine (pay1_apply _ _ _ _ _ _ _ _ _ p q).trans ?_
  have er : ((cfg1.win 9).blk t).view.emb y = ix2 (⟨t.val * 2000 + p.val, by omega⟩ : Fin 40000) q := by
    funext a; apply Fin.ext
    match a with
    | ⟨0, _⟩ => show win1_9.index t (0 : Fin 2) * 2000 + 1 * (y 0).val = t.val * 2000 + (y 0).val; rw [e18]; omega
    | ⟨1, _⟩ => show win1_9.index t (1 : Fin 2) * 128 + 1 * (y 1).val = (y 1).val; rw [e19]; omega
  rw [er]
  show outRow (rowOf (iblk1 V c 2 t) (0 : Fin 1)) (rowOf (iblk1 V c 3 t) (0 : Fin 1)) (rowOf (iblk1 V c 4 t) (0 : Fin 1)) (rowOf (iblk1 V c 5 t) (0 : Fin 1)) (rowOf (iblk1 V c 6 t) (0 : Fin 1))
      (iblk1 V c 7 t) (iblk1 V c 8 t) (rowOf (iblk1 V c 0 t) p) (rowOf (iblk1 V c 1 t) p) q
    = outRow (rowOf (V c main_v28) (0 : Fin 1)) (rowOf (V c main_v29) (0 : Fin 1)) (rowOf (V c main_v30) (0 : Fin 1)) (rowOf (V c main_v31) (0 : Fin 1)) (rowOf (V c main_v32) (0 : Fin 1))
      (V c main_v6) (V c main_v7) (rowOf (V c main_arg0) (⟨t.val * 2000 + p.val, by omega⟩ : Fin 40000)) (rowOf (V c main_v27) (⟨t.val * 2000 + p.val, by omega⟩ : Fin 40000)) q
  have b2 : iblk1 V c 2 t = V c main_v28 := by
    funext z
    show V c main_v28 (((cfg1.win 2).blk t).view.emb z) = V c main_v28 z
    refine congrArg _ (funext fun a => Fin.ext ?_)
    match a with
    | ⟨0, _⟩ => show win1_2.index t (0 : Fin 2) * 1 + 1 * (z 0).val = (z 0).val; rw [e4]; omega
    | ⟨1, _⟩ => show win1_2.index t (1 : Fin 2) * 128 + 1 * (z 1).val = (z 1).val; rw [e5]; omega
  have b3 : iblk1 V c 3 t = V c main_v29 := by
    funext z
    show V c main_v29 (((cfg1.win 3).blk t).view.emb z) = V c main_v29 z
    refine congrArg _ (funext fun a => Fin.ext ?_)
    match a with
    | ⟨0, _⟩ => show win1_3.index t (0 : Fin 2) * 1 + 1 * (z 0).val = (z 0).val; rw [e6]; omega
    | ⟨1, _⟩ => show win1_3.index t (1 : Fin 2) * 128 + 1 * (z 1).val = (z 1).val; rw [e7]; omega
  have b4 : iblk1 V c 4 t = V c main_v30 := by
    funext z
    show V c main_v30 (((cfg1.win 4).blk t).view.emb z) = V c main_v30 z
    refine congrArg _ (funext fun a => Fin.ext ?_)
    match a with
    | ⟨0, _⟩ => show win1_4.index t (0 : Fin 2) * 1 + 1 * (z 0).val = (z 0).val; rw [e8]; omega
    | ⟨1, _⟩ => show win1_4.index t (1 : Fin 2) * 128 + 1 * (z 1).val = (z 1).val; rw [e9]; omega
  have b5 : iblk1 V c 5 t = V c main_v31 := by
    funext z
    show V c main_v31 (((cfg1.win 5).blk t).view.emb z) = V c main_v31 z
    refine congrArg _ (funext fun a => Fin.ext ?_)
    match a with
    | ⟨0, _⟩ => show win1_5.index t (0 : Fin 2) * 1 + 1 * (z 0).val = (z 0).val; rw [e10]; omega
    | ⟨1, _⟩ => show win1_5.index t (1 : Fin 2) * 128 + 1 * (z 1).val = (z 1).val; rw [e11]; omega
  have b6 : iblk1 V c 6 t = V c main_v32 := by
    funext z
    show V c main_v32 (((cfg1.win 6).blk t).view.emb z) = V c main_v32 z
    refine congrArg _ (funext fun a => Fin.ext ?_)
    match a with
    | ⟨0, _⟩ => show win1_6.index t (0 : Fin 2) * 1 + 1 * (z 0).val = (z 0).val; rw [e12]; omega
    | ⟨1, _⟩ => show win1_6.index t (1 : Fin 2) * 128 + 1 * (z 1).val = (z 1).val; rw [e13]; omega
  have b7 : iblk1 V c 7 t = V c main_v6 := by
    funext z
    show V c main_v6 (((cfg1.win 7).blk t).view.emb z) = V c main_v6 z
    refine congrArg _ (funext fun a => Fin.ext ?_)
    match a with
    | ⟨0, _⟩ => show win1_7.index t (0 : Fin 2) * 256 + 1 * (z 0).val = (z 0).val; rw [e14]; omega
    | ⟨1, _⟩ => show win1_7.index t (1 : Fin 2) * 128 + 1 * (z 1).val = (z 1).val; rw [e15]; omega
  have b8 : iblk1 V c 8 t = V c main_v7 := by
    funext z
    show V c main_v7 (((cfg1.win 8).blk t).view.emb z) = V c main_v7 z
    refine congrArg _ (funext fun a => Fin.ext ?_)
    match a with
    | ⟨0, _⟩ => show win1_8.index t (0 : Fin 2) * 128 + 1 * (z 0).val = (z 0).val; rw [e16]; omega
    | ⟨1, _⟩ => show win1_8.index t (1 : Fin 2) * 128 + 1 * (z 1).val = (z 1).val; rw [e17]; omega
  have b0 : rowOf (iblk1 V c 0 t) p = rowOf (V c main_arg0) (⟨t.val * 2000 + p.val, by omega⟩ : Fin 40000) := by
    funext l
    show V c main_arg0 (((cfg1.win 0).blk t).view.emb (ix2 p l)) = V c main_arg0 (ix2 (⟨t.val * 2000 + p.val, by omega⟩ : Fin 40000) l)
    refine congrArg _ (funext fun a => Fin.ext ?_)
    match a with
    | ⟨0, _⟩ => show win1_0.index t (0 : Fin 2) * 2000 + 1 * p.val = t.val * 2000 + p.val; rw [e0]; omega
    | ⟨1, _⟩ => show win1_0.index t (1 : Fin 2) * 128 + 1 * l.val = l.val; rw [e1]; omega
  have b1 : rowOf (iblk1 V c 1 t) p = rowOf (V c main_v27) (⟨t.val * 2000 + p.val, by omega⟩ : Fin 40000) := by
    funext l
    show V c main_v27 (((cfg1.win 1).blk t).view.emb (ix2 p l)) = V c main_v27 (ix2 (⟨t.val * 2000 + p.val, by omega⟩ : Fin 40000) l)
    refine congrArg _ (funext fun a => Fin.ext ?_)
    match a with
    | ⟨0, _⟩ => show win1_1.index t (0 : Fin 2) * 2000 + 1 * p.val = t.val * 2000 + p.val; rw [e2]; omega
    | ⟨1, _⟩ => show win1_1.index t (1 : Fin 2) * 128 + 1 * l.val = l.val; rw [e3]; omega
  rw [b2, b3, b4, b5, b6, b7, b8, b0, b1]

/-- Row `r` of the result lies in the block of point `r / 2000`: the twenty blocks of 2000 rows fill it. -/
theorem final (c : Dev nD) : (dat1 V c).arrAt 9 cfg1.N = result V c :=
  (dat1 V c).arrAt_eq_of_cover 9 _ (fun t _ => flushed_eq V c t) fun i => by
    have hi0 : (i 0).val < 40000 := (i 0).isLt
    have hi1 : (i 1).val < 128 := (i 1).isLt
    have hN : cfg1.N = 20 := N_1
    have hlt : (i 0).val / 2000 < cfg1.N := by omega
    refine ⟨⟨(i 0).val / 2000, hlt⟩, flush1_9 _, ?_⟩
    obtain ⟨e0, e1, e2, e3, e4, e5, e6, e7, e8, e9, e10, e11, e12, e13, e14, e15, e16, e17, e18, e19⟩ := idx_facts ⟨(i 0).val / 2000, hlt⟩
    show i ∈ ((View.whole main_v33).slice (win1_9.rect ⟨(i 0).val / 2000, hlt⟩)).set
    rw [View.set_slice_whole, Rect.mem_set_unit]
    intro a
    match a with
    | ⟨0, _⟩ =>
      show win1_9.index ⟨(i 0).val / 2000, hlt⟩ (0 : Fin 2) * 2000 ≤ (i 0).val ∧ (i 0).val < win1_9.index ⟨(i 0).val / 2000, hlt⟩ (0 : Fin 2) * 2000 + 2000
      rw [e18]; show (i 0).val / 2000 * 2000 ≤ (i 0).val ∧ (i 0).val < (i 0).val / 2000 * 2000 + 2000; omega
    | ⟨1, _⟩ =>
      show win1_9.index ⟨(i 0).val / 2000, hlt⟩ (1 : Fin 2) * 128 ≤ (i 1).val ∧ (i 1).val < win1_9.index ⟨(i 0).val / 2000, hlt⟩ (1 : Fin 2) * 128 + 128
      rw [e19]; omega

end Cert.KernelIdeal.Region1

end
-- ==== Proof.LibRowGather.lean ====
/-
  A gather of whole rows of a matrix, read by coordinates, for any extents.

  An `[n, c]` matrix is gathered at `e` start indices laid out as a column `[e, 1]`: every start index names a row,
  the whole row (a `1 × c` slice) is taken, and the result is the `[e, c]` matrix of the taken rows. In gather's
  dimension numbers: the result's axis 1 is the offset axis, the operand's axis 0 is collapsed and is the one axis the
  start index addresses, there are no batching axes, the index vector lies along axis 1 of the start indices, and the
  slice sizes are `[1, c]`. For ANY extents `n`, `e`, `c` (with `n` positive) and any index width, entry `(p, q)` of
  the result is entry `(r, q)` of the operand, where `r` is start index `p` read as a signed integer and clamped into
  `[0, n − 1]` (`rowAt`, `gather_row_apply`). A program's printed gather record with these lists is `rowDims n e c _`
  by `rfl`.
-/
import Idealize.ShloMosaic.PureOps.ShapeOps
import Idealize.ShloMosaic.PureOps.Dims
import Idealize.ShloMosaic.Lib.ValueIdx

namespace Cert.RowGather

open Idealize.ShloMosaic Idealize.ShloMosaic.ValueIdx

variable {α : Type}

/-- The dimension numbers of a gather of whole rows: operand `[n, c]`, start indices `[e, 1]`, result `[e, c]`.
    Their side conditions `wf` are decided on a program's literal extents. -/
abbrev rowDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- The row that start index `p` names: the index read as a signed integer, clamped into `[0, n − 1]`. -/
def rowAt {n e w : Nat} (hn : 0 < n) (idx : IVec ⟨2, ![e, 1]⟩ w) (p : Fin e) : Fin n :=
  ⟨min (idx (ix2 p 0)).toInt.toNat (n - 1), by omega⟩

/-- THE ROW GATHER READ AT `(p, q)`: the operand's entry in column `q` of the row that start index `p` names. -/
theorem gather_row_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowDims n e c wf) x idx (ix2 p q) = x (ix2 (rowAt hn idx p) q) := by
  unfold Host.gather
  congr 1
  funext a
  refine Fin.ext ?_
  match a with
  | ⟨0, _⟩ =>
    show (rowDims n e c wf).start (ix2 p q) idx 0 + (rowDims n e c wf).batchCoord (ix2 p q) 0
      + (rowDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims n e c wf).startIndexMap from List.mem_singleton.mpr rfl)]
    have hsi : (rowDims n e c wf).siIdx (ix2 p q) ⟨List.idxOf (0 : Fin 2) (rowDims n e c wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowDims n e c wf).start (ix2 p q) idx 1 + (rowDims n e c wf).batchCoord (ix2 p q) 1
      + (rowDims n e c wf).offCoord (ix2 p q) 1 = q.val
    have hk : (1 : Fin 2) ∈ (rowDims n e c wf).sKept :=
      (GatherDims.mem_sKept _ _).mpr ⟨fun h => absurd (List.mem_singleton.mp h) (show ¬ (1 : Fin 2) = 0 by decide), List.not_mem_nil⟩
    rw [GatherDims.batchCoord_eq_zero _ _ _ List.not_mem_nil]
    unfold GatherDims.start
    rw [dif_neg (show (1 : Fin 2) ∉ (rowDims n e c wf).startIndexMap from
      fun h => absurd (List.mem_singleton.mp h) (show ¬ (1 : Fin 2) = 0 by decide))]
    unfold GatherDims.offCoord
    rw [dif_pos hk]
    simp only [Nat.add_zero, Nat.zero_add]
    rfl

end Cert.RowGather
-- ==== Proof.Hoist.lean ====
/-
  A gather of rows commutes with a function applied row by row.

  The message network `relu (v · W1) · W2` acts on each feature row by itself. So taking, for every edge, the source
  node's row of the matrix of messages is the same as first taking the source node's feature row and then applying the
  network to the taken rows: at `(p, q)` both are `∑ k, max (∑ l, X (r, l) · W1 (l, k)) 0 · W2 (k, q)` with `r` the
  row edge `p` names (the start index read signed and clamped into the matrix).
-/
import proofs.«173865_j43980465111676_2_alg».proof.Proof.Gen.KernelIdeal
import proofs.«173865_j43980465111676_2_alg».proof.Proof.Gen.ReferenceIdeal
import proofs.«173865_j43980465111676_2_alg».proof.Proof.Spec
import proofs.«173865_j43980465111676_2_alg».proof.Proof.LibPlainDot
import proofs.«173865_j43980465111676_2_alg».proof.Proof.LibRowGather

noncomputable section

namespace Cert.Hoist

open Idealize.ShloMosaic Idealize.ShloMosaic.ValueIdx Cert.RowSpec Cert.RowGather

/-- Entry `(r, q)` of the matrix of messages: the network's output `q` on feature row `r`. -/
theorem msgArr_apply {a : ℕ} (W1 W2 : Mat 128 128) (X : Mat a 128) (r : Fin a) (q : Fin 128) :
    msgArr W1 W2 X (ix2 r q) = ∑ k : Fin 128, max (∑ l : Fin 128, X (ix2 r l) * W1 (ix2 l k)) 0 * W2 (ix2 k q) := rfl

/-- The reference's gather of the feature rows at `(p, l)`: the feature matrix's entry `l` in the row that start
    index `p` names. -/
theorem refGather_apply (X : FVec Ideal Cert.ReferenceIdeal.S40000x128 .f32) (idx : IVec Cert.ReferenceIdeal.S640000x1 32)
    (p : Fin 640000) (l : Fin 128) :
    Host.gather Cert.ReferenceIdeal.gather_S40000x128_S640000x1_S640000x128_1_0_n_n_0_1_1128 X idx (ix2 p l)
      = X (ix2 (rowAt (n := 40000) (by decide) idx p) l) :=
  gather_row_apply (n := 40000) (e := 640000) (c := 128) (by decide)
    Cert.ReferenceIdeal.Facts₀.gather_S40000x128_S640000x1_S640000x128_1_0_n_n_0_1_1128_wf X idx p l

/-- The two-layer network applied to a `640000 × 128` matrix `G` as the reference writes it — a product with `W1`,
    a maximum with the zero splat, a product with `W2` — read at `(p, q)`. -/
theorem net_apply (G : FVec Ideal Cert.ReferenceIdeal.S640000x128 .f32) (W1 W2 : FVec Ideal Cert.ReferenceIdeal.S128x128 .f32)
    (p : Fin 640000) (q : Fin 128) :
    Host.dotGeneral (F := Ideal) Cert.ReferenceIdeal.dot_S640000x128_S128x128_S640000x128_1_0_0_1_n_n none
        (maximumf (Host.dotGeneral (F := Ideal) Cert.ReferenceIdeal.dot_S640000x128_S128x128_S640000x128_1_0_0_1_n_n none G W1)
          (broadcastInDim Cert.ReferenceIdeal.S640000x128 ![] Cert.ReferenceIdeal.Facts₀.bcast_S_S640000x128
            (constant (F := Ideal) Cert.ReferenceIdeal.S_ .f32 0x00000000#32)))
        W2 (ix2 p q)
      = ∑ k : Fin 128, max (∑ l : Fin 128, G (ix2 p l) * W1 (ix2 l k)) 0 * W2 (ix2 k q) := by
  refine (Cert.LibPlainDot.dotGeneral_apply 640000 128 128 none .single _ W2 (ix2 p q)).trans ?_
  refine Finset.sum_congr rfl fun k _ => congrArg (· * W2 (ix2 k q)) ?_
  show max _ _ = max _ _
  refine congrArg₂ max ?_ ?_
  · exact Cert.LibPlainDot.dotGeneral_apply 640000 128 128 none .single G W1 (ix2 p k)
  · exact Ideal.ofBits_zero_f32

/-- THE HOIST: the rows of the matrix of messages that the start indices name are the messages of the rows of the
    feature matrix that the start indices name. -/
theorem gather_msg (X : FVec Ideal Cert.KernelIdeal.S40000x128 .f32) (W1 W2 : FVec Ideal Cert.KernelIdeal.S128x128 .f32)
    (idx : IVec Cert.KernelIdeal.S640000x1 32) :
    Host.gather Cert.KernelIdeal.gather_S40000x128_S640000x1_S640000x128_1_0_n_n_0_1_1128 (Cert.RowSpec.msgArr W1 W2 X) idx
      = Host.dotGeneral (F := Ideal) Cert.ReferenceIdeal.dot_S640000x128_S128x128_S640000x128_1_0_0_1_n_n none
          (maximumf (Host.dotGeneral (F := Ideal) Cert.ReferenceIdeal.dot_S640000x128_S128x128_S640000x128_1_0_0_1_n_n none
              (Host.gather Cert.ReferenceIdeal.gather_S40000x128_S640000x1_S640000x128_1_0_n_n_0_1_1128 X idx) W1)
            (broadcastInDim Cert.ReferenceIdeal.S640000x128 ![] Cert.ReferenceIdeal.Facts₀.bcast_S_S640000x128 (constant (F := Ideal) Cert.ReferenceIdeal.S_ .f32 0x00000000#32)))
          W2 := by
  funext j
  obtain ⟨p, q, rfl⟩ : ∃ (p : Fin 640000) (q : Fin 128), j = ix2 p q := ⟨j 0, j 1, eq_ix2 j⟩
  refine (gather_row_apply (n := 40000) (e := 640000) (c := 128) (by decide)
    Cert.KernelIdeal.Facts₀.gather_S40000x128_S640000x1_S640000x128_1_0_n_n_0_1_1128_wf (msgArr W1 W2 X) idx p q).trans ?_
  refine (msgArr_apply W1 W2 X _ q).trans ?_
  refine Eq.symm ((net_apply _ W1 W2 p q).trans ?_)
  simp only [refGather_apply]

end Cert.Hoist

end
-- ==== Proof.Bridge.lean ====
/-
  The aggregate the kernel's second host stretch forms is the reference's aggregate.

  Both programs form the aggregate from a message matrix by the same host operations: scatter-add the messages into
  their destination rows, count the messages per row, divide by the count (at least one). The kernel's messages are
  the rows, gathered by source node, of the message network applied to every node; the reference's are the message
  network applied to the gathered feature rows. A gather of whole rows commutes with a function applied row by row,
  so the two message matrices are one matrix, and the same operations applied to it give one aggregate.
-/
import proofs.«173865_j43980465111676_2_alg».proof.Proof.Gen.KernelIdeal.Launch
import proofs.«173865_j43980465111676_2_alg».proof.Proof.Gen.ReferenceIdeal.Run
import proofs.«173865_j43980465111676_2_alg».proof.Proof.Spec
import proofs.«173865_j43980465111676_2_alg».proof.Proof.Hoist
import Idealize.ShloMosaic.Lib.StableHlo.Run

set_option maxRecDepth 16384

noncomputable section

namespace Cert.Bridge

open Cert.RowSpec
open Idealize.ShloMosaic Idealize.ShloMosaic.TcCoe Idealize.ShloMosaic.StableHlo
open Idealize.SL.Sem

set_option maxHeartbeats 8000000 in
/-- From buffers in which the first region's result is the message network of every node's feature row, and the two
    rows of the edge list are the reference's, the second host stretch leaves in the aggregate's buffer the
    reference's aggregate. -/
theorem agg_eq (U : Valuation Cert.KernelIdeal.τ Cert.KernelIdeal.sig (Elt Ideal))
    (V0 : Valuation Cert.ReferenceIdeal.τ Cert.ReferenceIdeal.sig (Elt Ideal))
    (h8 : U (Proc.devRef .tc Cert.KernelIdeal.main_v8)
      = msgArr (V0 (Proc.devRef .tc Cert.ReferenceIdeal.main_arg7)) (V0 (Proc.devRef .tc Cert.ReferenceIdeal.main_arg8)) (V0 (Proc.devRef .tc Cert.ReferenceIdeal.main_arg0)))
    (h1 : U (Proc.devRef .tc Cert.KernelIdeal.main_v1) = Cert.ReferenceIdeal.Value.res_main_v1 V0)
    (h3 : U (Proc.devRef .tc Cert.KernelIdeal.main_v3) = Cert.ReferenceIdeal.Value.res_main_v3 V0) :
    after (Cert.KernelIdeal.Gen.hostOps1 (F := Ideal)) U (Proc.devRef .tc Cert.KernelIdeal.main_v27)
      = Cert.ReferenceIdeal.Value.res_main_v26 V0 := by
  after_results_simp
  rw [h8, h1, h3]
  unfold Cert.ReferenceIdeal.Value.res_main_v26
  rw [Cert.Hoist.gather_msg]
  rfl

end Cert.Bridge

end
-- ==== Proof.RefTail.lean ====
/-
  The reference's tail read row by row, on the extended reals.

  From the aggregate array A (40000 rows of 128 entries) and the feature array X the reference computes, array-wide:
  the lane sums of A laid as a column and divided by 128 (the mean column); A less that column spread along the lanes
  (the centred array); the lane sums of its entrywise square, again divided by 128, plus a small constant, under a
  reciprocal square root, spread along the lanes and multiplied in; gain and bias, each a 128-vector repeated down the
  rows. That is the normalisation Â. Then X + (X − Â) · w with the weights w repeated down the rows, the same
  normalisation of that mixture with a second gain and bias, the two normalised arrays laid side by side into 256
  lanes, a matrix product with O1, a maximum with the zero splat, and a matrix product with O2.

  Every one of these array operations acts within a row: a broadcast reads its operand at the coordinates it keeps,
  a lane sum at row r is the sum over the lane coordinate of the entries (r, k), a side-by-side layout reads its
  first piece below lane 128 and its second piece from lane 128 on, and a matrix product at (r, q) is a sum over the
  contraction position of row r of the left operand against column q of the right one. Read at an index (r, q),
  each stage is therefore the specification's row function of row r of its operand: `mean`, `ln`, `mix`, `cat`,
  `head`; composed, row r of the result is `outRow` of row r of X and row r of A. The aggregate array A stays an
  opaque operand throughout.
-/
import proofs.«173865_j43980465111676_2_alg».proof.Proof.Gen.ReferenceIdeal.Run
import proofs.«173865_j43980465111676_2_alg».proof.Proof.Spec
import proofs.«173865_j43980465111676_2_alg».proof.Proof.LibKeepdims
import proofs.«173865_j43980465111676_2_alg».proof.Proof.LibPlainDot
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Value Cert.RowSpec Idealize.ShloMosaic Idealize.ShloMosaic.TcCoe Idealize.ShloMosaic.ValueIdx Idealize.SL.Sem Idealize.ShloMosaic.StableHlo

variable {α : Type}

/-- A one-axis array of 40000 entries laid as a column: entry (r, u) is entry r. -/
theorem col_apply (h : S40000.BroadcastsInDim S40000x1 (![0] : Fin 1 → Fin S40000x1.rank)) (v : S40000.Idx → α)
    (r : Fin 40000) (u : Fin 1) : broadcastInDim S40000x1 ![0] h v (ix2 r u) = v (ix1 r) := by
  refine broadcastInDim_apply _ h v (ix2 r u) (ix1 r) fun a => ?_
  match a with
  | ⟨0, _⟩ => rfl

/-- A column spread along 128 lanes: entry (r, q) is the column's entry in row r. -/
theorem spread_apply (h : S40000x1.BroadcastsInDim S40000x128 (![0, 1] : Fin 2 → Fin S40000x128.rank)) (v : S40000x1.Idx → α)
    (r : Fin 40000) (q : Fin 128) : broadcastInDim S40000x128 ![0, 1] h v (ix2 r q) = v (ix2 r (0 : Fin 1)) := by
  refine broadcastInDim_apply _ h v (ix2 r q) (ix2 r (0 : Fin 1)) fun a => ?_
  match a with
  | ⟨0, _⟩ => rfl
  | ⟨1, _⟩ => rfl

/-- A scalar spread to a column reads the scalar everywhere. -/
theorem splatCol_apply (h : S_.BroadcastsInDim S40000x1 (![] : Fin 0 → Fin S40000x1.rank)) (v : S_.Idx → α)
    (j : S40000x1.Idx) : broadcastInDim S40000x1 ![] h v j = v ix0 := by
  refine broadcastInDim_apply _ h v j ix0 fun a => a.elim0

/-- A scalar spread to the whole array reads the scalar everywhere. -/
theorem splat_apply (h : S_.BroadcastsInDim S40000x128 (![] : Fin 0 → Fin S40000x128.rank)) (v : S_.Idx → α)
    (j : S40000x128.Idx) : broadcastInDim S40000x128 ![] h v j = v ix0 := by
  refine broadcastInDim_apply _ h v j ix0 fun a => a.elim0

/-- A 128-vector laid as a single row and repeated down 40000 rows: entry (r, q) is entry q of the vector. -/
theorem rows_apply (h₁ : S128.BroadcastsInDim S1x128 (![1] : Fin 1 → Fin S1x128.rank))
    (h₂ : S1x128.BroadcastsInDim S40000x128 (![0, 1] : Fin 2 → Fin S40000x128.rank)) (v : S128.Idx → α)
    (r : Fin 40000) (q : Fin 128) :
    broadcastInDim S40000x128 ![0, 1] h₂ (broadcastInDim S1x128 ![1] h₁ v) (ix2 r q) = v (ix1 q) := by
  refine (broadcastInDim_apply _ h₂ _ (ix2 r q) (ix2 (0 : Fin 1) q) fun a => ?_).trans
    (broadcastInDim_apply _ h₁ v (ix2 (0 : Fin 1) q) (ix1 q) fun a => ?_)
  · match a with
    | ⟨0, _⟩ => rfl
    | ⟨1, _⟩ => rfl
  · match a with
    | ⟨0, _⟩ => rfl

/-- A host sum along the 128 lanes from the zero scalar, read at row r: the sum over the lane coordinate of the entry
    (r, k); the zero it starts from adds nothing. -/
theorem rowSum_apply (h' : S40000x128.ReducesTo [1] S40000) (hu : 0 < S_.numel) (X : FVec Ideal S40000x128 .f32)
    (r : Fin 40000) :
    Host.reduceAdd (F := Ideal) X (constant S_ .f32 0x00000000#32) h' hu (ix1 r) = ∑ k : Fin 128, X (ix2 r k) := by
  have h : S40000x128.Reduces [1] S40000 := by decide
  show Ideal.hostReduceAdd h' X (Ideal.ofBits .f32 0x00000000#32) (ix1 r) = _
  rw [Ideal.hostReduceAdd_single h' h X _ (ix1 r), Ideal.ofBits_zero_f32, zero_add]
  refine Finset.sum_congr rfl fun k _ => congrArg X ?_
  funext d
  apply Fin.ext
  match d with
  | ⟨0, _⟩ => rfl
  | ⟨1, _⟩ => rfl

/-- The mean column of an array, as the reference computes it: the lane sums laid as a column, divided by the splat of
    the constant 128. -/
def meanCol (X : FVec Ideal S40000x128 .f32) : FVec Ideal S40000x1 .f32 :=
  Host.divf (broadcastInDim S40000x1 ![0] bcast_S40000_S40000x1_0 (Host.reduceAdd X (constant S_ .f32 0x00000000#32) reducesTo_S40000x128_S40000_d1 h_S_)) (broadcastInDim S40000x1 ![] bcast_S_S40000x1 (constant S_ .f32 0x43000000#32))

/-- Row r of the mean column is the mean of row r. -/
theorem meanCol_apply (X : FVec Ideal S40000x128 .f32) (r : Fin 40000) (u : Fin 1) :
    meanCol X (ix2 r u) = mean (rowOf X r) := by
  show Ideal.div (broadcastInDim S40000x1 ![0] bcast_S40000_S40000x1_0
      (Host.reduceAdd (F := Ideal) X (constant S_ .f32 0x00000000#32) reducesTo_S40000x128_S40000_d1 h_S_) (ix2 r u))
    (broadcastInDim S40000x1 ![] bcast_S_S40000x1 (constant (F := Ideal) S_ .f32 0x43000000#32) (ix2 r u)) = _
  rw [col_apply, rowSum_apply, splatCol_apply]
  rfl

/-- An array with its mean column, spread along the lanes, subtracted. -/
def centred (X : FVec Ideal S40000x128 .f32) : FVec Ideal S40000x128 .f32 :=
  subf X (broadcastInDim S40000x128 ![0, 1] bcast_S40000x1_S40000x128_0_1 (meanCol X))

/-- Entry (r, q) of the centred array is the entry less the mean of its row. -/
theorem centred_apply (X : FVec Ideal S40000x128 .f32) (r : Fin 40000) (q : Fin 128) :
    centred X (ix2 r q) = rowOf X r q - mean (rowOf X r) := by
  show X (ix2 r q) - broadcastInDim S40000x128 ![0, 1] bcast_S40000x1_S40000x128_0_1 (meanCol X) (ix2 r q) = _
  rw [spread_apply, meanCol_apply]
  rfl

/-- The normalisation of an array, as the reference computes it: centred, scaled by the spread column of reciprocal
    square roots of the centred second moments plus the small constant, then gain and bias repeated down the rows. -/
def lnArr (g b : FVec Ideal S128 .f32) (X : FVec Ideal S40000x128 .f32) : FVec Ideal S40000x128 .f32 :=
  addf (mulf (mulf (centred X)
      (broadcastInDim S40000x128 ![0, 1] bcast_S40000x1_S40000x128_0_1
        (Host.rsqrt (addf (meanCol (mulf (centred X) (centred X)))
          (broadcastInDim S40000x1 ![] bcast_S_S40000x1 (constant S_ .f32 0x3727C5AC#32))))))
      (broadcastInDim S40000x128 ![0, 1] bcast_S1x128_S40000x128_0_1 (broadcastInDim S1x128 ![1] bcast_S128_S1x128_1 g)))
    (broadcastInDim S40000x128 ![0, 1] bcast_S1x128_S40000x128_0_1 (broadcastInDim S1x128 ![1] bcast_S128_S1x128_1 b))

/-- Row r of the normalised array is the normalisation of row r. -/
theorem lnArr_apply (g b : FVec Ideal S128 .f32) (X : FVec Ideal S40000x128 .f32) (r : Fin 40000) (q : Fin 128) :
    lnArr g b X (ix2 r q) = ln (vecRow g) (vecRow b) (rowOf X r) q := by
  have hsq : rowOf (mulf (centred X) (centred X)) r
      = fun k => (rowOf X r k - mean (rowOf X r)) * (rowOf X r k - mean (rowOf X r)) := by
    funext k
    show centred X (ix2 r k) * centred X (ix2 r k) = _
    rw [centred_apply]
  show centred X (ix2 r q)
      * broadcastInDim S40000x128 ![0, 1] bcast_S40000x1_S40000x128_0_1 (Host.rsqrt (addf (meanCol (mulf (centred X) (centred X)))
          (broadcastInDim S40000x1 ![] bcast_S_S40000x1 (constant S_ .f32 0x3727C5AC#32)))) (ix2 r q)
      * broadcastInDim S40000x128 ![0, 1] bcast_S1x128_S40000x128_0_1 (broadcastInDim S1x128 ![1] bcast_S128_S1x128_1 g) (ix2 r q)
      + broadcastInDim S40000x128 ![0, 1] bcast_S1x128_S40000x128_0_1 (broadcastInDim S1x128 ![1] bcast_S128_S1x128_1 b) (ix2 r q) = _
  rw [centred_apply, spread_apply, rows_apply, rows_apply]
  show _ * Ideal.rsqrt (meanCol (mulf (centred X) (centred X)) (ix2 r (0 : Fin 1))
      + broadcastInDim S40000x1 ![] bcast_S_S40000x1 (constant (F := Ideal) S_ .f32 0x3727C5AC#32) (ix2 r (0 : Fin 1))) * _ + _ = _
  rw [meanCol_apply, hsq, splatCol_apply]
  rfl

/-- Row r of the normalised array, as a row. -/
theorem rowOf_lnArr (g b : FVec Ideal S128 .f32) (X : FVec Ideal S40000x128 .f32) (r : Fin 40000) :
    rowOf (lnArr g b X) r = ln (vecRow g) (vecRow b) (rowOf X r) :=
  funext fun q => lnArr_apply g b X r q

/-- The feature array pushed away from a second array, as the reference computes it: X + (X − Y) · w, the weights
    repeated down the rows. -/
def mixArr (w : FVec Ideal S128 .f32) (X Y : FVec Ideal S40000x128 .f32) : FVec Ideal S40000x128 .f32 :=
  addf X (mulf (subf X Y) (broadcastInDim S40000x128 ![0, 1] bcast_S1x128_S40000x128_0_1 (broadcastInDim S1x128 ![1] bcast_S128_S1x128_1 w)))

/-- Row r of the mixture is the mixture of the rows. -/
theorem rowOf_mixArr (w : FVec Ideal S128 .f32) (X Y : FVec Ideal S40000x128 .f32) (r : Fin 40000) :
    rowOf (mixArr w X Y) r = mix (vecRow w) (rowOf X r) (rowOf Y r) := by
  funext q
  show X (ix2 r q) + (X (ix2 r q) - Y (ix2 r q))
      * broadcastInDim S40000x128 ![0, 1] bcast_S1x128_S40000x128_0_1 (broadcastInDim S1x128 ![1] bcast_S128_S1x128_1 w) (ix2 r q) = _
  rw [rows_apply]
  rfl

/-- Two arrays laid side by side along the lanes: row r of the result is the two rows side by side. -/
theorem concat_apply (h : Shape.Concatenates [S40000x128, S40000x128] S40000x256 (1 : Fin S40000x256.rank))
    (P Q : FVec Ideal S40000x128 .f32) (r : Fin 40000) (k : Fin 256) :
    concatenate S40000x256 1 [⟨S40000x128, P⟩, ⟨S40000x128, Q⟩] h (ix2 r k) = cat (rowOf P r) (rowOf Q r) k := by
  unfold cat
  by_cases hk : k.val < 128
  · rw [dif_pos hk]
    refine concatenate_pair_apply_left (1 : Fin S40000x256.rank) P Q h (ix2 r k) rfl (ix2 r ⟨k.val, hk⟩) fun b => ?_
    match b with
    | ⟨0, _⟩ => rfl
    | ⟨1, _⟩ => rfl
  · rw [dif_neg hk]
    refine concatenate_pair_apply_right (1 : Fin S40000x256.rank) P Q h (ix2 r k) rfl rfl
      (ix2 r ⟨k.val - 128, by omega⟩) (fun b hb => ?_) ?_
    · match b with
      | ⟨0, _⟩ => rfl
      | ⟨1, _⟩ => exact absurd rfl hb
    · show k.val - 128 + 128 = k.val
      omega

/-- The output network on an array of 256-entry rows: the product with O1, the maximum with the zero splat, the
    product with O2. Row r of the result is the output network on row r. -/
theorem head_apply (hz : S_.BroadcastsInDim S40000x128 (![] : Fin 0 → Fin S40000x128.rank))
    (C : FVec Ideal S40000x256 .f32) (O1 : FVec Ideal S256x128 .f32) (O2 : FVec Ideal S128x128 .f32)
    (r : Fin 40000) (q : Fin 128) :
    Host.dotGeneral dot_S40000x128_S128x128_S40000x128_1_0_0_1_n_n none
      (maximumf (Host.dotGeneral dot_S40000x256_S256x128_S40000x128_1_0_0_1_n_n none C O1)
        (broadcastInDim S40000x128 ![] hz (constant (F := Ideal) S_ .f32 0x00000000#32))) O2 (ix2 r q)
      = head O1 O2 (fun l => C (ix2 r l)) q := by
  refine (Cert.LibPlainDot.dotGeneral_apply 40000 128 128 none .single _ O2 (ix2 r q)).trans ?_
  show _ = ∑ k : Fin 128, max (∑ l : Fin 256, C (ix2 r l) * O1 (ix2 l k)) 0 * O2 (ix2 k q)
  refine Finset.sum_congr rfl fun k _ => ?_
  show max (FloatOps.dotGeneral (DotDims.plain 40000 256 128) none .single C O1 (ix2 r k))
      (broadcastInDim S40000x128 ![] hz (constant (F := Ideal) S_ .f32 0x00000000#32) (ix2 r k)) * O2 (ix2 k q) = _
  rw [Cert.LibPlainDot.dotGeneral_apply, splat_apply]
  show max _ (Ideal.ofBits .f32 0x00000000#32) * _ = _
  rw [Ideal.ofBits_zero_f32]

/-- The reference's tail as a function of its operands: both normalisations, the mixture, the two arrays side by
    side, the output network. -/
def tailArr (g1 b1 g2 b2 w : FVec Ideal S128 .f32) (O1 : FVec Ideal S256x128 .f32) (O2 : FVec Ideal S128x128 .f32)
    (X A : FVec Ideal S40000x128 .f32) : FVec Ideal S40000x128 .f32 :=
  Host.dotGeneral dot_S40000x128_S128x128_S40000x128_1_0_0_1_n_n none
    (maximumf (Host.dotGeneral dot_S40000x256_S256x128_S40000x128_1_0_0_1_n_n none
        (concatenate S40000x256 1 [⟨S40000x128, lnArr g2 b2 (mixArr w X (lnArr g1 b1 A))⟩, ⟨S40000x128, lnArr g1 b1 A⟩]
          concatenates_S40000x128_S40000x128_S40000x256_d1) O1)
      (broadcastInDim S40000x128 ![] bcast_S_S40000x128 (constant S_ .f32 0x00000000#32))) O2

/-- Row by row the tail is the node update of the specification. -/
theorem tailArr_eq (g1 b1 g2 b2 w : FVec Ideal S128 .f32) (O1 : FVec Ideal S256x128 .f32) (O2 : FVec Ideal S128x128 .f32)
    (X A : FVec Ideal S40000x128 .f32) :
    tailArr g1 b1 g2 b2 w O1 O2 X A = outArr (vecRow g1) (vecRow b1) (vecRow g2) (vecRow b2) (vecRow w) O1 O2 X A := by
  funext j
  obtain ⟨r, q, rfl⟩ : ∃ (r : Fin 40000) (q : Fin 128), j = ix2 r q := ⟨j 0, j 1, eq_ix2 j⟩
  refine (head_apply bcast_S_S40000x128 _ O1 O2 r q).trans ?_
  show _ = head O1 O2 (cat (ln (vecRow g2) (vecRow b2) (mix (vecRow w) (rowOf X r) (ln (vecRow g1) (vecRow b1) (rowOf A r))))
    (ln (vecRow g1) (vecRow b1) (rowOf A r))) q
  refine congrArg (fun u => head O1 O2 u q) (funext fun l => ?_)
  rw [concat_apply, rowOf_lnArr, rowOf_mixArr, rowOf_lnArr]

/-- The reference's result, as the generated run states it over any launch contents, is the node update applied to
    every row of the features and of the aggregate array. -/
theorem tail_eq (V0 : Valuation τ sig (Elt Ideal)) :
    Host.dotGeneral (φ₁ := .f32) (φ₂ := .f32) dot_S40000x128_S128x128_S40000x128_1_0_0_1_n_n none (maximumf (Host.dotGeneral (φ₁ := .f32) (φ₂ := .f32) dot_S40000x256_S256x128_S40000x128_1_0_0_1_n_n none (concatenate S40000x256 1 [⟨S40000x128, (addf (mulf (mulf (subf (res_main_v55 V0) (broadcastInDim S40000x128 ![0, 1] bcast_S40000x1_S40000x128_0_1 (res_main_v59 V0))) (broadcastInDim S40000x128 ![0, 1] bcast_S40000x1_S40000x128_0_1 (Host.rsqrt (addf (Host.divf (broadcastInDim S40000x1 ![0] bcast_S40000_S40000x1_0 (Host.reduceAdd (mulf (res_main_v61 V0) (res_main_v61 V0)) (constant S_ .f32 0x00000000#32) reducesTo_S40000x128_S40000_d1 h_S_)) (broadcastInDim S40000x1 ![] bcast_S_S40000x1 (constant S_ .f32 0x43000000#32))) (broadcastInDim S40000x1 ![] bcast_S_S40000x1 (constant S_ .f32 0x3727C5AC#32)))))) (broadcastInDim S40000x128 ![0, 1] bcast_S1x128_S40000x128_0_1 (broadcastInDim S1x128 ![1] bcast_S128_S1x128_1 (V0 (Proc.devRef .tc main_arg4))))) (broadcastInDim S40000x128 ![0, 1] bcast_S1x128_S40000x128_0_1 (broadcastInDim S1x128 ![1] bcast_S128_S1x128_1 (V0 (Proc.devRef .tc main_arg5)))))⟩, ⟨S40000x128, (res_main_v50 V0)⟩] concatenates_S40000x128_S40000x128_S40000x256_d1) (V0 (Proc.devRef .tc main_arg9))) (broadcastInDim S40000x128 ![] bcast_S_S40000x128 (constant S_ .f32 0x00000000#32))) (V0 (Proc.devRef .tc main_arg10))
      = outArr (vecRow (V0 (Proc.devRef .tc main_arg2))) (vecRow (V0 (Proc.devRef .tc main_arg3)))
          (vecRow (V0 (Proc.devRef .tc main_arg4))) (vecRow (V0 (Proc.devRef .tc main_arg5)))
          (vecRow (V0 (Proc.devRef .tc main_arg6))) (V0 (Proc.devRef .tc main_arg9)) (V0 (Proc.devRef .tc main_arg10))
          (V0 (Proc.devRef .tc main_arg0)) (res_main_v26 V0) :=
  tailArr_eq (V0 (Proc.devRef .tc main_arg2)) (V0 (Proc.devRef .tc main_arg3)) (V0 (Proc.devRef .tc main_arg4))
    (V0 (Proc.devRef .tc main_arg5)) (V0 (Proc.devRef .tc main_arg6)) (V0 (Proc.devRef .tc main_arg9))
    (V0 (Proc.devRef .tc main_arg10)) (V0 (Proc.devRef .tc main_arg0)) (res_main_v26 V0)

/-- On every device, from any memory with zero counters: every weakly fair execution of the reference terminates
    with its result the node update of the specification applied to every row of the feature array and of the
    aggregate array, and its eleven arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v84)
        = outArr (vecRow (m ((c.tc : Thread nD τ).loc main_arg2))) (vecRow (m ((c.tc : Thread nD τ).loc main_arg3)))
            (vecRow (m ((c.tc : Thread nD τ).loc main_arg4))) (vecRow (m ((c.tc : Thread nD τ).loc main_arg5)))
            (vecRow (m ((c.tc : Thread nD τ).loc main_arg6)))
            (m ((c.tc : Thread nD τ).loc main_arg9)) (m ((c.tc : Thread nD τ).loc main_arg10))
            (m ((c.tc : Thread nD τ).loc main_arg0)) (res_main_v26 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (tail_eq (launchContents m c)), (h c).2⟩)
    (Cert.ReferenceIdeal.Value.run (F := Ideal) m ρ)

end Cert.ReferenceIdeal.RefValue

end
-- ==== Proof.lean ====
/-
  The node-update kernel against its reference, on the extended reals.

  The reference gathers the feature rows of the edges' source nodes, applies the message network `relu (v · W1) · W2` to
  every gathered row, scatter-adds the messages into the destination nodes' rows and divides by the number of
  messages (at least one); then, row by row, normalises the aggregate, mixes it with the node's own features,
  normalises again, lays the two normalised rows side by side and applies the output network. The kernel applies the
  message network ONCE PER NODE in a first grid region and gathers the resulting rows instead — a gather of whole rows
  commutes with a function applied row by row —, forms the aggregate by the same host operations, and does the
  row-by-row tail in a second grid region, 2000 rows per grid point. Changes of float format are the identity on the
  extended reals, and a matrix unit accumulating into zero is the plain sum of products a host contraction is; no step
  reorders a sum or distributes a product, so the precondition is not used.

  Both runs end with the result array at ONE function of the launch memory: row `r` is `Cert.RowSpec.outRow` of row
  `r` of the features and row `r` of the reference's aggregate.
-/
import proofs.«173865_j43980465111676_2_alg».proof.Defs
import proofs.«173865_j43980465111676_2_alg».proof.Proof.Gen.Kernel
import proofs.«173865_j43980465111676_2_alg».proof.Proof.Gen.Kernel.Skeleton
import proofs.«173865_j43980465111676_2_alg».proof.Proof.Gen.Kernel.Launch
import proofs.«173865_j43980465111676_2_alg».proof.Proof.Gen.Kernel.Points
import proofs.«173865_j43980465111676_2_alg».proof.Proof.Gen.Kernel.Frame
import proofs.«173865_j43980465111676_2_alg».proof.Proof.Gen.KernelIdeal
import proofs.«173865_j43980465111676_2_alg».proof.Proof.Gen.KernelIdeal.Skeleton
import proofs.«173865_j43980465111676_2_alg».proof.Proof.Gen.KernelIdeal.Launch
import proofs.«173865_j43980465111676_2_alg».proof.Proof.Gen.KernelIdeal.Points
import proofs.«173865_j43980465111676_2_alg».proof.Proof.Gen.KernelIdeal.Frame
import proofs.«173865_j43980465111676_2_alg».proof.Proof.Gen.ReferenceIdeal
import proofs.«173865_j43980465111676_2_alg».proof.Proof.Gen.ReferenceIdeal.Run
import proofs.«173865_j43980465111676_2_alg».proof.Proof.Gen.Pre_finite_inputs
import proofs.«173865_j43980465111676_2_alg».proof.Proof.Spec
import proofs.«173865_j43980465111676_2_alg».proof.Proof.KernelRun
import proofs.«173865_j43980465111676_2_alg».proof.Proof.KernelMid
import proofs.«173865_j43980465111676_2_alg».proof.Proof.Region0
import proofs.«173865_j43980465111676_2_alg».proof.Proof.Region1
import proofs.«173865_j43980465111676_2_alg».proof.Proof.Bridge
import proofs.«173865_j43980465111676_2_alg».proof.Proof.RefTail
import Idealize.ShloMosaic.Adequacy
import Idealize.ShloMosaic.Init

set_option maxRecDepth 16384

noncomputable section

namespace Cert.Proof

open Idealize.ShloMosaic Idealize.ShloMosaic.TcCoe Idealize.ShloMosaic.StableHlo Idealize.SL.Sem Cert.RowSpec

/-- The idealized kernel's run, read: from a launch memory `m` that agrees with a reference memory `m'` on the
    features, the edge list and the two message weight matrices, the result array ends at the node update of every
    row of the features and of the reference's aggregate, and the arguments end unchanged. -/
theorem kernel_value (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v33)
        = outArr (vecRow (m ((c.tc : Thread Cert.KernelIdeal.nD Cert.KernelIdeal.τ).loc Cert.KernelIdeal.main_arg2))) (vecRow (m ((c.tc : Thread Cert.KernelIdeal.nD Cert.KernelIdeal.τ).loc Cert.KernelIdeal.main_arg3))) (vecRow (m ((c.tc : Thread Cert.KernelIdeal.nD Cert.KernelIdeal.τ).loc Cert.KernelIdeal.main_arg4))) (vecRow (m ((c.tc : Thread Cert.KernelIdeal.nD Cert.KernelIdeal.τ).loc Cert.KernelIdeal.main_arg5))) (vecRow (m ((c.tc : Thread Cert.KernelIdeal.nD Cert.KernelIdeal.τ).loc Cert.KernelIdeal.main_arg6)))
            (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg0)) (Cert.ReferenceIdeal.Value.res_main_v26 (launchContents m' c))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) := by
  refine (θ_run (Cert.KernelIdeal.defs (F := Ideal)) _ _).mono (fun r h c => ⟨(h c).1.trans ?_, (h c).2⟩)
    (Cert.KernelIdeal.RunValue.run_value (F := Ideal) m ρ)
  obtain ⟨a0, a1, a7, a8⟩ := hag c
  -- the result array is the second region's output array, which its twenty blocks fill
  refine ((Cert.KernelIdeal.Gen.W4_arr m ρ c 9).trans (Cert.KernelIdeal.Region1.final (Cert.KernelIdeal.Gen.V3 m ρ) c)).trans ?_
  -- the first region's result, the two edge rows, as the second host stretch finds them
  have h8 : Cert.KernelIdeal.Gen.W2 m ρ c (Proc.devRef .tc Cert.KernelIdeal.main_v8)
      = msgArr (launchContents m' c (Proc.devRef .tc Cert.ReferenceIdeal.main_arg7)) (launchContents m' c (Proc.devRef .tc Cert.ReferenceIdeal.main_arg8))
          (launchContents m' c (Proc.devRef .tc Cert.ReferenceIdeal.main_arg0)) := by
    refine ((Cert.KernelIdeal.Gen.W2_arr m ρ c 3).trans (Cert.KernelIdeal.Region0.final (Cert.KernelIdeal.Gen.V1 m ρ) c)).trans ?_
    rw [Cert.KernelIdeal.KMid.V1_v4 m ρ c, Cert.KernelIdeal.KMid.V1_v5 m ρ c, Cert.KernelIdeal.KMid.V1_arg0 m ρ c]
    show _ = msgArr (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg0))
    rw [a7, a8, a0]
  have h1 : Cert.KernelIdeal.Gen.W2 m ρ c (Proc.devRef .tc Cert.KernelIdeal.main_v1) = Cert.ReferenceIdeal.Value.res_main_v1 (launchContents m' c) := by
    refine (Cert.KernelIdeal.KMid.W2_v1 m ρ c).trans ?_
    unfold Cert.ReferenceIdeal.Value.res_main_v1
    show _ = shapeCast _ (extractStridedSlice Cert.ReferenceIdeal.S1x640000 ![0, 0] (m' ((c.tc : Thread Cert.ReferenceIdeal.nD Cert.ReferenceIdeal.τ).loc Cert.ReferenceIdeal.main_arg1)) _) _
    rw [a1]
  have h3 : Cert.KernelIdeal.Gen.W2 m ρ c (Proc.devRef .tc Cert.KernelIdeal.main_v3) = Cert.ReferenceIdeal.Value.res_main_v3 (launchContents m' c) := by
    refine (Cert.KernelIdeal.KMid.W2_v3 m ρ c).trans ?_
    unfold Cert.ReferenceIdeal.Value.res_main_v3
    show _ = shapeCast _ (extractStridedSlice Cert.ReferenceIdeal.S1x640000 ![1, 0] (m' ((c.tc : Thread Cert.ReferenceIdeal.nD Cert.ReferenceIdeal.τ).loc Cert.ReferenceIdeal.main_arg1)) _) _
    rw [a1]
  have hagg : Cert.KernelIdeal.Gen.V3 m ρ c Cert.KernelIdeal.main_v27 = Cert.ReferenceIdeal.Value.res_main_v26 (launchContents m' c) :=
    Cert.Bridge.agg_eq (Cert.KernelIdeal.Gen.W2 m ρ c) (launchContents m' c) h8 h1 h3
  show outArr (rowOf (Cert.KernelIdeal.Gen.V3 m ρ c Cert.KernelIdeal.main_v28) (0 : Fin 1)) (rowOf (Cert.KernelIdeal.Gen.V3 m ρ c Cert.KernelIdeal.main_v29) (0 : Fin 1))
      (rowOf (Cert.KernelIdeal.Gen.V3 m ρ c Cert.KernelIdeal.main_v30) (0 : Fin 1)) (rowOf (Cert.KernelIdeal.Gen.V3 m ρ c Cert.KernelIdeal.main_v31) (0 : Fin 1))
      (rowOf (Cert.KernelIdeal.Gen.V3 m ρ c Cert.KernelIdeal.main_v32) (0 : Fin 1)) (Cert.KernelIdeal.Gen.V3 m ρ c Cert.KernelIdeal.main_v6) (Cert.KernelIdeal.Gen.V3 m ρ c Cert.KernelIdeal.main_v7)
      (Cert.KernelIdeal.Gen.V3 m ρ c Cert.KernelIdeal.main_arg0) (Cert.KernelIdeal.Gen.V3 m ρ c Cert.KernelIdeal.main_v27) = _
  rw [Cert.KernelIdeal.KMid.V3_v28 m ρ c, Cert.KernelIdeal.KMid.V3_v29 m ρ c, Cert.KernelIdeal.KMid.V3_v30 m ρ c, Cert.KernelIdeal.KMid.V3_v31 m ρ c,
    Cert.KernelIdeal.KMid.V3_v32 m ρ c, Cert.KernelIdeal.KMid.V3_v6 m ρ c, Cert.KernelIdeal.KMid.V3_v7 m ρ c, Cert.KernelIdeal.KMid.V3_arg0 m ρ c, hagg]

namespace Claims

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: there is no conjunct to prove. -/
theorem preserves : Cert.preserves_Kernel_KernelIdeal := trivial

/-- From memories that agree on the arguments both programs end with the result array at the node update of every row
    of the features and of the reference's aggregate: the kernel by `kernel_value`, the reference by its run read row
    by row. -/
theorem algebraic : Cert.algebraic_KernelIdeal_ReferenceIdeal := by
  intro m ρ m' ρ' _ hagree
  refine ⟨_, kernel_value m ρ m' (fun c => ⟨(hagree c).1, (hagree c).2.1, (hagree c).2.2.2.2.2.2.2.1, (hagree c).2.2.2.2.2.2.2.2.1⟩), ?_⟩
  refine (θ_run Cert.ReferenceIdeal.defs _ _).mono (fun r h c => ⟨(h c).1.trans ?_, (h c).2⟩)
    (Cert.ReferenceIdeal.RefValue.run_spec m' ρ')
  obtain ⟨a0, a1, a2, a3, a4, a5, a6, a7, a8, a9, a10⟩ := hagree c
  rw [a0, a2, a3, a4, a5, a6, a9, a10]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
